-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 88
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S128x128, .bf16⟩
  | .hbm, ⟨50, _⟩ => ⟨S128x64, .bf16⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .bf16⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .bf16 = 32 ∨ (Rect.block (s := S128x64) S128x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 159
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x64, .f32⟩
  | 6 => ⟨S64, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S50000, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .i1⟩
  | 72 => ⟨S_, .f32⟩
  | 73 => ⟨S50000x128, .f32⟩
  | 74 => ⟨S50000x128, .i1⟩
  | 75 => ⟨S_, .f32⟩
  | 76 => ⟨S_, .f32⟩
  | 77 => ⟨S50000x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S50000, .i32⟩
  | 85 => ⟨S850000, .i32⟩
  | 86 => ⟨S850000, .i32⟩
  | 87 => ⟨S_, .f32⟩
  | 88 => ⟨S50000, .f32⟩
  | 89 => ⟨S850000, .f32⟩
  | 90 => ⟨S_, .f32⟩
  | 91 => ⟨S50000, .f32⟩
  | 92 => ⟨S850000x1, .i32⟩
  | 93 => ⟨S50000, .f32⟩
  | 94 => ⟨S_, .f32⟩
  | 95 => ⟨S50000, .f32⟩
  | 96 => ⟨S50000, .i1⟩
  | 97 => ⟨S50000, .f32⟩
  | 98 => ⟨S_, .f32⟩
  | 99 => ⟨S_, .f32⟩
  | 100 => ⟨S50000, .f32⟩
  | 101 => ⟨S50000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000, .f32⟩
  | 121 => ⟨S850000, .f32⟩
  | 122 => ⟨S50000x64, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000x64, .f32⟩
  | 4 => ⟨S850000x1, .f32⟩
  | 5 => ⟨S850000x64, .f32⟩
  | 6 => ⟨S850000x64, .f32⟩
  | 7 => ⟨S_, .f32⟩
  | 8 => ⟨S50000x64, .f32⟩
  | 9 => ⟨S850000x1, .i32⟩
  | 10 => ⟨S50000x64, .f32⟩
  | 11 => ⟨S1x64, .f32⟩
  | 12 => ⟨S50000x64, .f32⟩
  | 13 => ⟨S50000x64, .f32⟩
  | 14 => ⟨S_, .f32⟩
  | 15 => ⟨S50000x64, .f32⟩
  | 16 => ⟨S50000x64, .f32⟩
  | 17 => ⟨S50000x64, .f32⟩
  | 18 => ⟨S50000x64, .f32⟩
  | 19 => ⟨S50000x64, .i1⟩
  | 20 => ⟨S50000x64, .f32⟩
  | 21 => ⟨S50000x64, .f32⟩
  | 22 => ⟨S50000x64, .f32⟩
  | 23 => ⟨S50000x64, .f32⟩
  | 24 => ⟨S50000x64, .f32⟩
  | 25 => ⟨S50000x64, .f32⟩
  | 26 => ⟨S50000x64, .f32⟩
  | 27 => ⟨S50000x64, .f32⟩
  | 28 => ⟨S_, .f32⟩
  | 29 => ⟨S50000x64, .f32⟩
  | 30 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_cst_1 : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_v4 : Ref sig .tc := ⟨.hbm, 78, rfl⟩
abbrev main_call1_v5 : Ref sig .tc := ⟨.hbm, 79, rfl⟩
abbrev main_call1_cst_2 : Ref sig .tc := ⟨.hbm, 80, rfl⟩
abbrev main_call1_v6 : Ref sig .tc := ⟨.hbm, 81, rfl⟩
abbrev main_call1_v7 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_9 : Ref sig .tc := ⟨.hbm, 87, rfl⟩
abbrev main_v53 : Ref sig .tc := ⟨.hbm, 88, rfl⟩
abbrev main_v54 : Ref sig .tc := ⟨.hbm, 89, rfl⟩
abbrev main_cst_10 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_11 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_12 : Ref sig .tc := ⟨.hbm, 98, rfl⟩
abbrev main_call2_v0 : Ref sig .tc := ⟨.hbm, 99, rfl⟩
abbrev main_call2_v1 : Ref sig .tc := ⟨.hbm, 100, rfl⟩
abbrev main_v61 : Ref sig .tc := ⟨.hbm, 101, rfl⟩
abbrev main_c_13 : Ref sig .tc := ⟨.hbm, 102, rfl⟩
abbrev main_v62 : Ref sig .tc := ⟨.hbm, 103, rfl⟩
abbrev main_v63 : Ref sig .tc := ⟨.hbm, 104, rfl⟩
abbrev main_c_14 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_c_15 : Ref sig .tc := ⟨.hbm, 112, rfl⟩
abbrev main_v70 : Ref sig .tc := ⟨.hbm, 113, rfl⟩
abbrev main_v71 : Ref sig .tc := ⟨.hbm, 114, rfl⟩
abbrev main_c_16 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_17 : Ref sig .tc := ⟨.hbm, 123, rfl⟩
abbrev main_v79 : Ref sig .tc := ⟨.hbm, 124, rfl⟩
abbrev main_v80 : Ref sig .tc := ⟨.hbm, 125, rfl⟩
abbrev main_c_18 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_19 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_call3_cst : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_v6 : Ref sig .tc := ⟨.hbm, 149, rfl⟩
abbrev main_call3_v7 : Ref sig .tc := ⟨.hbm, 150, rfl⟩
abbrev main_call3_v8 : Ref sig .tc := ⟨.hbm, 151, rfl⟩
abbrev main_call3_v9 : Ref sig .tc := ⟨.hbm, 152, rfl⟩
abbrev main_call3_v10 : Ref sig .tc := ⟨.hbm, 153, rfl⟩
abbrev main_call3_v11 : Ref sig .tc := ⟨.hbm, 154, rfl⟩
abbrev main_v95 : Ref sig .tc := ⟨.hbm, 155, rfl⟩
abbrev main_cst_20 : Ref sig .tc := ⟨.hbm, 156, rfl⟩
abbrev main_v96 : Ref sig .tc := ⟨.hbm, 157, rfl⟩
abbrev main_v97 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The kernel program's run with its RESULT named. The program is three kernel regions among stretches of host
  operations; the buffer contents at each boundary are a fold from the launch memory (a stretch applies its
  operations in order; a region leaves each of its arrays at what its blocks' write-backs leave and every other
  buffer as it was). Every weakly fair execution terminates, and in every final state each unscoped buffer holds
  the last boundary's contents: in particular the result buffer, and the seven argument arrays are as launched.
-/
import proofs.«158829_j43301860278532_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result buffer at the last boundary's contents and the arguments as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.KRun

end
-- ==== Proof.RefRun.lean ====
/-
  The reference's host program as a list of operations, and its run.

  `@main` of the reference is a straight line of StableHLO operations and calls of module-local functions (`_where`,
  `elu` with its two inner `_where` calls, `softplus`). Written out — each call replaced by the callee's operations over the
  call's own buffers — it is one list `ops` of 152 operations, stated here as eight consecutive segments: the first
  layer's edge weights, its dense product, its aggregation, its bias and `elu`; the second layer's edge weights, dense
  product and aggregation; the bias, `softplus` and the final shift. `main_eq` says the program is that list run in order;
  `run_main` that every weakly fair execution from a memory with zero counters terminates with each TensorCore buffer at
  the fold of the eight segments, in order, over the launch contents (`after_ops`).
-/
import proofs.«158829_j43301860278532_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in program order -/

/-- The first layer's edge weights: the two rows of the edge table sliced out and flattened, each extended by the
    identity edges `0 … 49999` (an iota), the edge values extended by ones; the degree of every node (a scatter-add of the
    extended values at the target indices into zeros), its reciprocal square root where the degree is positive and zero
    elsewhere (the `_where` call, its three operations over `main_call0`), that vector gathered at the source and at the
    target indices (each index first wrapped into `0 … 49999`: negative ones shifted by 50000), and the product
    `%31 = (gathered at source) · value · (gathered at target)`. -/
abbrev opsNorm1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),  -- %0 = stablehlo.slice %arg1 [0:1, 0:800000]
    StableHlo.reshape main_v0 main_v1 rfl shapeCasts_S1x800000_S800000,  -- %1 = stablehlo.reshape %0
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),  -- %2 = stablehlo.slice %arg1 [1:2, 0:800000]
    StableHlo.reshape main_v2 main_v3 rfl shapeCasts_S1x800000_S800000,  -- %3 = stablehlo.reshape %2
    StableHlo.nullary main_v4 (iotaInDim S50000 32 0),  -- %4 = stablehlo.iota dim = 0
    StableHlo.binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %5 = stablehlo.concatenate %1, %4, dim = 0
    StableHlo.binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %6 = stablehlo.concatenate %3, %4, dim = 0
    StableHlo.nullary main_cst (constant S_ .f32 0x3F800000#32),  -- %cst = stablehlo.constant dense<1.000000e+00>
    StableHlo.unary main_cst main_v7 (broadcastInDim S50000 ![] bcast_S_S50000 : (⟨S_, .f32⟩ : BufTy).Contents (Elt F) → (⟨S50000, .f32⟩ : BufTy).Contents (Elt F)),  -- %7 = stablehlo.broadcast_in_dim %cst, dims = []
    StableHlo.binary main_arg2 main_v7 main_v8 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),  -- %8 = stablehlo.concatenate %arg2, %7, dim = 0
    StableHlo.nullary main_cst_0 (constant S_ .f32 0x00000000#32),  -- %cst_0 = stablehlo.constant dense<0.000000e+00>
    StableHlo.unary main_cst_0 main_v9 (broadcastInDim S50000 ![] bcast_S_S50000 : (⟨S_, .f32⟩ : BufTy).Contents (Elt F) → (⟨S50000, .f32⟩ : BufTy).Contents (Elt F)),  -- %9 = stablehlo.broadcast_in_dim %cst_0, dims = []
    StableHlo.unary main_v6 main_v10 (broadcastInDim S850000x1 ![0] bcast_S850000_S850000x1_0 : (⟨S850000, .i32⟩ : BufTy).Contents (Elt F) → (⟨S850000x1, .i32⟩ : BufTy).Contents (Elt F)),  -- %10 = stablehlo.broadcast_in_dim %6, dims = [0]
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),  -- %11 = "stablehlo.scatter"(%9, %10, %8)
    StableHlo.nullary main_cst_1 (constant S_ .f32 0x00000000#32),  -- %cst_1 = stablehlo.constant dense<0.000000e+00>
    StableHlo.unary main_cst_1 main_v12 (broadcastInDim S50000 ![] bcast_S_S50000 : (⟨S_, .f32⟩ : BufTy).Contents (Elt F) → (⟨S50000, .f32⟩ : BufTy).Contents (Elt F)),  -- %12 = stablehlo.broadcast_in_dim %cst_1, dims = []
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),  -- %13 = stablehlo.compare GT, %11, %12, FLOAT
    StableHlo.unary main_v11 main_v14 (Host.rsqrt : (⟨S50000, .f32⟩ : BufTy).Contents (Elt F) → (⟨S50000, .f32⟩ : BufTy).Contents (Elt F)),  -- %14 = stablehlo.rsqrt %11
    StableHlo.nullary main_cst_2 (constant S_ .f32 0x00000000#32),  -- %cst_2 = stablehlo.constant dense<0.000000e+00>
    StableHlo.TRef.unary (.of main_cst_2) main_call0.v0 id,  -- @_where's %0 = stablehlo.convert %arg2
    StableHlo.TRef.unary main_call0.v0 main_call0.v1 (broadcastInDim S50000 ![] bcast_S_S50000),  -- @_where's %1 = stablehlo.broadcast_in_dim %0, dims = []
    StableHlo.TRef.ternary (.of main_v13) (.of main_v14) main_call0.v1 main_call0.v2 select,  -- @_where's %2 = stablehlo.select %arg0, %arg1, %1
    StableHlo.nullary main_c (constantI S_ 32 0#32),  -- %c = stablehlo.constant dense<0>
    StableHlo.unary main_c main_v16 (broadcastInDim S850000 ![] bcast_S_S850000 : (⟨S_, .i32⟩ : BufTy).Contents (Elt F) → (⟨S850000, .i32⟩ : BufTy).Contents (Elt F)),  -- %16 = stablehlo.broadcast_in_dim %c, dims = []
    StableHlo.binary main_v5 main_v16 main_v17 (cmpi .slt : (⟨S850000, .i32⟩ : BufTy).Contents (Elt F) → (⟨S850000, .i32⟩ : BufTy).Contents (Elt F) → (⟨S850000, .i1⟩ : BufTy).Contents (Elt F)),  -- %17 = stablehlo.compare LT, %5, %16, SIGNED
    StableHlo.nullary main_c_3 (constantI S_ 32 50000#32),  -- %c_3 = stablehlo.constant dense<50000>
    StableHlo.unary main_c_3 main_v18 (broadcastInDim S850000 ![] bcast_S_S850000 : (⟨S_, .i32⟩ : BufTy).Contents (Elt F) → (⟨S850000, .i32⟩ : BufTy).Contents (Elt F)),  -- %18 = stablehlo.broadcast_in_dim %c_3, dims = []
    StableHlo.binary main_v5 main_v18 main_v19 (addi : (⟨S850000, .i32⟩ : BufTy).Contents (Elt F) → (⟨S850000, .i32⟩ : BufTy).Contents (Elt F) → (⟨S850000, .i32⟩ : BufTy).Contents (Elt F)),  -- %19 = stablehlo.add %5, %18
    StableHlo.ternary main_v17 main_v19 main_v5 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %20 = stablehlo.select %17, %19, %5
    StableHlo.unary main_v20 main_v21 (broadcastInDim S850000x1 ![0] bcast_S850000_S850000x1_0 : (⟨S850000, .i32⟩ : BufTy).Contents (Elt F) → (⟨S850000x1, .i32⟩ : BufTy).Contents (Elt F)),  -- %21 = stablehlo.broadcast_in_dim %20, dims = [0]
    StableHlo.binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %22 = "stablehlo.gather"(%15, %21)
    StableHlo.binary main_v22 main_v8 main_v23 (mulf : (⟨S850000, .f32⟩ : BufTy).Contents (Elt F) → (⟨S850000, .f32⟩ : BufTy).Contents (Elt F) → (⟨S850000, .f32⟩ : BufTy).Contents (Elt F)),  -- %23 = stablehlo.multiply %22, %8
    StableHlo.nullary main_c_4 (constantI S_ 32 0#32),  -- %c_4 = stablehlo.constant dense<0>
    StableHlo.unary main_c_4 main_v24 (broadcastInDim S850000 ![] bcast_S_S850000 : (⟨S_, .i32⟩ : BufTy).Contents (Elt F) → (⟨S850000, .i32⟩ : BufTy).Contents (Elt F)),  -- %24 = stablehlo.broadcast_in_dim %c_4, dims = []
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),  -- %25 = stablehlo.compare LT, %6, %24, SIGNED
    StableHlo.nullary main_c_5 (constantI S_ 32 50000#32),  -- %c_5 = stablehlo.constant dense<50000>
    StableHlo.unary main_c_5 main_v26 (broadcastInDim S850000 ![] bcast_S_S850000 : (⟨S_, .i32⟩ : BufTy).Contents (Elt F) → (⟨S850000, .i32⟩ : BufTy).Contents (Elt F)),  -- %26 = stablehlo.broadcast_in_dim %c_5, dims = []
    StableHlo.binary main_v6 main_v26 main_v27 (addi : (⟨S850000, .i32⟩ : BufTy).Contents (Elt F) → (⟨S850000, .i32⟩ : BufTy).Contents (Elt F) → (⟨S850000, .i32⟩ : BufTy).Contents (Elt F)),  -- %27 = stablehlo.add %6, %26
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %28 = stablehlo.select %25, %27, %6
    StableHlo.unary main_v28 main_v29 (broadcastInDim S850000x1 ![0] bcast_S850000_S850000x1_0 : (⟨S850000, .i32⟩ : BufTy).Contents (Elt F) → (⟨S850000x1, .i32⟩ : BufTy).Contents (Elt F)),  -- %29 = stablehlo.broadcast_in_dim %28, dims = [0]
    StableHlo.binary main_v15 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %30 = "stablehlo.gather"(%15, %29)
    StableHlo.binary main_v23 main_v30 main_v31 (mulf : (⟨S850000, .f32⟩ : BufTy).Contents (Elt F) → (⟨S850000, .f32⟩ : BufTy).Contents (Elt F) → (⟨S850000, .f32⟩ : BufTy).Contents (Elt F)) ]  -- %31 = stablehlo.multiply %23, %30

/-- The first layer's dense product `%32 = %arg0 · %arg3`, contracting the feature axis. -/
abbrev opsDot1 : List (HloOp τ sig (Elt F)) :=
  [ StableHlo.binary main_arg0 main_arg3 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]  -- %32 = stablehlo.dot_general %arg0, %arg3, contracting_dims = [1] x [0], precision = [DEFAULT, DEFAULT]

/-- The first layer's aggregation: the source indices wrapped, the rows of `%32` gathered at them, each row scaled by its
    edge weight `%31` (broadcast along the feature axis), and the scaled rows scatter-added at the target indices into
    zeros: `%45`. -/
abbrev opsAgg1 : List (HloOp τ sig (Elt F)) :=
  [ StableHlo.nullary main_c_6 (constantI S_ 32 0#32),  -- %c_6 = stablehlo.constant dense<0>
    StableHlo.unary main_c_6 main_v33 (broadcastInDim S850000 ![] bcast_S_S850000 : (⟨S_, .i32⟩ : BufTy).Contents (Elt F) → (⟨S850000, .i32⟩ : BufTy).Contents (Elt F)),  -- %33 = stablehlo.broadcast_in_dim %c_6, dims = []
    StableHlo.binary main_v5 main_v33 main_v34 (cmpi .slt : (⟨S850000, .i32⟩ : BufTy).Contents (Elt F) → (⟨S850000, .i32⟩ : BufTy).Contents (Elt F) → (⟨S850000, .i1⟩ : BufTy).Contents (Elt F)),  -- %34 = stablehlo.compare LT, %5, %33, SIGNED
    StableHlo.nullary main_c_7 (constantI S_ 32 50000#32),  -- %c_7 = stablehlo.constant dense<50000>
    StableHlo.unary main_c_7 main_v35 (broadcastInDim S850000 ![] bcast_S_S850000 : (⟨S_, .i32⟩ : BufTy).Contents (Elt F) → (⟨S850000, .i32⟩ : BufTy).Contents (Elt F)),  -- %35 = stablehlo.broadcast_in_dim %c_7, dims = []
    StableHlo.binary main_v5 main_v35 main_v36 (addi : (⟨S850000, .i32⟩ : BufTy).Contents (Elt F) → (⟨S850000, .i32⟩ : BufTy).Contents (Elt F) → (⟨S850000, .i32⟩ : BufTy).Contents (Elt F)),  -- %36 = stablehlo.add %5, %35
    StableHlo.ternary main_v34 main_v36 main_v5 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %37 = stablehlo.select %34, %36, %5
    StableHlo.unary main_v37 main_v38 (broadcastInDim S850000x1 ![0] bcast_S850000_S850000x1_0 : (⟨S850000, .i32⟩ : BufTy).Contents (Elt F) → (⟨S850000x1, .i32⟩ : BufTy).Contents (Elt F)),  -- %38 = stablehlo.broadcast_in_dim %37, dims = [0]
    StableHlo.binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),  -- %39 = "stablehlo.gather"(%32, %38)
    StableHlo.unary main_v31 main_v40 (broadcastInDim S850000x1 ![0] bcast_S850000_S850000x1_0 : (⟨S850000, .f32⟩ : BufTy).Contents (Elt F) → (⟨S850000x1, .f32⟩ : BufTy).Contents (Elt F)),  -- %40 = stablehlo.broadcast_in_dim %31, dims = [0]
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),  -- %41 = stablehlo.broadcast_in_dim %40, dims = [0, 1]
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),  -- %42 = stablehlo.multiply %39, %41
    StableHlo.nullary main_cst_8 (constant S_ .f32 0x00000000#32),  -- %cst_8 = stablehlo.constant dense<0.000000e+00>
    StableHlo.unary main_cst_8 main_v43 (broadcastInDim S50000x128 ![] bcast_S_S50000x128 : (⟨S_, .f32⟩ : BufTy).Contents (Elt F) → (⟨S50000x128, .f32⟩ : BufTy).Contents (Elt F)),  -- %43 = stablehlo.broadcast_in_dim %cst_8, dims = []
    StableHlo.unary main_v6 main_v44 (broadcastInDim S850000x1 ![0] bcast_S850000_S850000x1_0 : (⟨S850000, .i32⟩ : BufTy).Contents (Elt F) → (⟨S850000x1, .i32⟩ : BufTy).Contents (Elt F)),  -- %44 = stablehlo.broadcast_in_dim %6, dims = [0]
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]  -- %45 = "stablehlo.scatter"(%43, %44, %42)

/-- The first layer's bias and activation: `%48 = %45 + %arg4` (the bias broadcast over the rows), then the `elu` call
    over `main_call1`: the test `x > 0` twice, `expm1` of zero where `x > 0` and of `x` elsewhere (the `_where_0` call over
    `main_call1.call0`), times one, and the select of `x` where `x > 0` and of that product elsewhere (the `_where_1`
    call over `main_call1.call1`), whose result is `%49`. -/
abbrev opsElu : List (HloOp τ sig (Elt F)) :=
  [ StableHlo.unary main_arg4 main_v46 (broadcastInDim S1x128 ![1] bcast_S128_S1x128_1 : (⟨S128, .f32⟩ : BufTy).Contents (Elt F) → (⟨S1x128, .f32⟩ : BufTy).Contents (Elt F)),  -- %46 = stablehlo.broadcast_in_dim %arg4, dims = [1]
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),  -- %47 = stablehlo.broadcast_in_dim %46, dims = [0, 1]
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),  -- %48 = stablehlo.add %45, %47
    StableHlo.TRef.nullary main_call1.cst (constant S_ .f32 0x00000000#32),  -- @elu's %cst = stablehlo.constant dense<0.000000e+00>
    StableHlo.TRef.unary main_call1.cst main_call1.v0 (broadcastInDim S50000x128 ![] bcast_S_S50000x128),  -- @elu's %0 = stablehlo.broadcast_in_dim %cst, dims = []
    StableHlo.TRef.binary (.of main_v48) main_call1.v0 main_call1.v1 (cmpf .ogt),  -- @elu's %1 = stablehlo.compare GT, %arg0, %0, FLOAT
    StableHlo.TRef.nullary main_call1.cst_0 (constant S_ .f32 0x00000000#32),  -- @elu's %cst_0 = stablehlo.constant dense<0.000000e+00>
    StableHlo.TRef.unary main_call1.cst_0 main_call1.v2 (broadcastInDim S50000x128 ![] bcast_S_S50000x128),  -- @elu's %2 = stablehlo.broadcast_in_dim %cst_0, dims = []
    StableHlo.TRef.binary (.of main_v48) main_call1.v2 main_call1.v3 (cmpf .ogt),  -- @elu's %3 = stablehlo.compare GT, %arg0, %2, FLOAT
    StableHlo.TRef.nullary main_call1.cst_1 (constant S_ .f32 0x00000000#32),  -- @elu's %cst_1 = stablehlo.constant dense<0.000000e+00>
    StableHlo.TRef.unary main_call1.cst_1 main_call1.call0.v0 id,  -- @_where_0's %0 = stablehlo.convert %arg1
    StableHlo.TRef.unary main_call1.call0.v0 main_call1.call0.v1 (broadcastInDim S50000x128 ![] bcast_S_S50000x128),  -- @_where_0's %1 = stablehlo.broadcast_in_dim %0, dims = []
    StableHlo.TRef.ternary main_call1.v3 main_call1.call0.v1 (.of main_v48) main_call1.call0.v2 select,  -- @_where_0's %2 = stablehlo.select %arg0, %1, %arg2
    StableHlo.TRef.unary main_call1.call0.v2 main_call1.v5 Host.expm1,  -- @elu's %5 = stablehlo.exponential_minus_one %4
    StableHlo.TRef.nullary main_call1.cst_2 (constant S_ .f32 0x3F800000#32),  -- @elu's %cst_2 = stablehlo.constant dense<1.000000e+00>
    StableHlo.TRef.unary main_call1.cst_2 main_call1.v6 (broadcastInDim S50000x128 ![] bcast_S_S50000x128),  -- @elu's %6 = stablehlo.broadcast_in_dim %cst_2, dims = []
    StableHlo.TRef.binary main_call1.v6 main_call1.v5 main_call1.v7 mulf,  -- @elu's %7 = stablehlo.multiply %6, %5
    StableHlo.TRef.ternary main_call1.v1 (.of main_v48) main_call1.v7 main_call1.call1.v0 select ]  -- @_where_1's %0 = stablehlo.select %arg0, %arg1, %arg2

/-- The second layer's edge weights, computed again from the flattened index rows `%1`, `%3` and the edge values as the
    first layer's were: a second iota, the extended index and value vectors, the degrees, their guarded reciprocal square
    roots (the `_where` call over `main_call2`), the two gathers at the wrapped indices and the product `%77`. -/
abbrev opsNorm2 : List (HloOp τ sig (Elt F)) :=
  [ StableHlo.nullary main_v50 (iotaInDim S50000 32 0),  -- %50 = stablehlo.iota dim = 0
    StableHlo.binary main_v1 main_v50 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %51 = stablehlo.concatenate %1, %50, dim = 0
    StableHlo.binary main_v3 main_v50 main_v52 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),  -- %52 = stablehlo.concatenate %3, %50, dim = 0
    StableHlo.nullary main_cst_9 (constant S_ .f32 0x3F800000#32),  -- %cst_9 = stablehlo.constant dense<1.000000e+00>
    StableHlo.unary main_cst_9 main_v53 (broadcastInDim S50000 ![] bcast_S_S50000 : (⟨S_, .f32⟩ : BufTy).Contents (Elt F) → (⟨S50000, .f32⟩ : BufTy).Contents (Elt F)),  -- %53 = stablehlo.broadcast_in_dim %cst_9, dims = []
    StableHlo.binary main_arg2 main_v53 main_v54 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),  -- %54 = stablehlo.concatenate %arg2, %53, dim = 0
    StableHlo.nullary main_cst_10 (constant S_ .f32 0x00000000#32),  -- %cst_10 = stablehlo.constant dense<0.000000e+00>
    StableHlo.unary main_cst_10 main_v55 (broadcastInDim S50000 ![] bcast_S_S50000 : (⟨S_, .f32⟩ : BufTy).Contents (Elt F) → (⟨S50000, .f32⟩ : BufTy).Contents (Elt F)),  -- %55 = stablehlo.broadcast_in_dim %cst_10, dims = []
    StableHlo.unary main_v52 main_v56 (broadcastInDim S850000x1 ![0] bcast_S850000_S850000x1_0 : (⟨S850000, .i32⟩ : BufTy).Contents (Elt F) → (⟨S850000x1, .i32⟩ : BufTy).Contents (Elt F)),  -- %56 = stablehlo.broadcast_in_dim %52, dims = [0]
    StableHlo.ternary main_v55 main_v56 main_v54 main_v57 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),  -- %57 = "stablehlo.scatter"(%55, %56, %54)
    StableHlo.nullary main_cst_11 (constant S_ .f32 0x00000000#32),  -- %cst_11 = stablehlo.constant dense<0.000000e+00>
    StableHlo.unary main_cst_11 main_v58 (broadcastInDim S50000 ![] bcast_S_S50000 : (⟨S_, .f32⟩ : BufTy).Contents (Elt F) → (⟨S50000, .f32⟩ : BufTy).Contents (Elt F)),  -- %58 = stablehlo.broadcast_in_dim %cst_11, dims = []
    StableHlo.binary main_v57 main_v58 main_v59 (cmpf .ogt : (⟨S50000, .f32⟩ : BufTy).Contents (Elt F) → (⟨S50000, .f32⟩ : BufTy).Contents (Elt F) → (⟨S50000, .i1⟩ : BufTy).Contents (Elt F)),  -- %59 = stablehlo.compare GT, %57, %58, FLOAT
    StableHlo.unary main_v57 main_v60 (Host.rsqrt : (⟨S50000, .f32⟩ : BufTy).Contents (Elt F) → (⟨S50000, .f32⟩ : BufTy).Contents (Elt F)),  -- %60 = stablehlo.rsqrt %57
    StableHlo.nullary main_cst_12 (constant S_ .f32 0x00000000#32),  -- %cst_12 = stablehlo.constant dense<0.000000e+00>
    StableHlo.TRef.unary (.of main_cst_12) main_call2.v0 id,  -- @_where's %0 = stablehlo.convert %arg2
    StableHlo.TRef.unary main_call2.v0 main_call2.v1 (broadcastInDim S50000 ![] bcast_S_S50000),  -- @_where's %1 = stablehlo.broadcast_in_dim %0, dims = []
    StableHlo.TRef.ternary (.of main_v59) (.of main_v60) main_call2.v1 main_call2.v2 select,  -- @_where's %2 = stablehlo.select %arg0, %arg1, %1
    StableHlo.nullary main_c_13 (constantI S_ 32 0#32),  -- %c_13 = stablehlo.constant dense<0>
    StableHlo.unary main_c_13 main_v62 (broadcastInDim S850000 ![] bcast_S_S850000 : (⟨S_, .i32⟩ : BufTy).Contents (Elt F) → (⟨S850000, .i32⟩ : BufTy).Contents (Elt F)),  -- %62 = stablehlo.broadcast_in_dim %c_13, dims = []
    StableHlo.binary main_v51 main_v62 main_v63 (cmpi .slt : (⟨S850000, .i32⟩ : BufTy).Contents (Elt F) → (⟨S850000, .i32⟩ : BufTy).Contents (Elt F) → (⟨S850000, .i1⟩ : BufTy).Contents (Elt F)),  -- %63 = stablehlo.compare LT, %51, %62, SIGNED
    StableHlo.nullary main_c_14 (constantI S_ 32 50000#32),  -- %c_14 = stablehlo.constant dense<50000>
    StableHlo.unary main_c_14 main_v64 (broadcastInDim S850000 ![] bcast_S_S850000 : (⟨S_, .i32⟩ : BufTy).Contents (Elt F) → (⟨S850000, .i32⟩ : BufTy).Contents (Elt F)),  -- %64 = stablehlo.broadcast_in_dim %c_14, dims = []
    StableHlo.binary main_v51 main_v64 main_v65 (addi : (⟨S850000, .i32⟩ : BufTy).Contents (Elt F) → (⟨S850000, .i32⟩ : BufTy).Contents (Elt F) → (⟨S850000, .i32⟩ : BufTy).Contents (Elt F)),  -- %65 = stablehlo.add %51, %64
    StableHlo.ternary main_v63 main_v65 main_v51 main_v66 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %66 = stablehlo.select %63, %65, %51
    StableHlo.unary main_v66 main_v67 (broadcastInDim S850000x1 ![0] bcast_S850000_S850000x1_0 : (⟨S850000, .i32⟩ : BufTy).Contents (Elt F) → (⟨S850000x1, .i32⟩ : BufTy).Contents (Elt F)),  -- %67 = stablehlo.broadcast_in_dim %66, dims = [0]
    StableHlo.binary main_v61 main_v67 main_v68 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %68 = "stablehlo.gather"(%61, %67)
    StableHlo.binary main_v68 main_v54 main_v69 (mulf : (⟨S850000, .f32⟩ : BufTy).Contents (Elt F) → (⟨S850000, .f32⟩ : BufTy).Contents (Elt F) → (⟨S850000, .f32⟩ : BufTy).Contents (Elt F)),  -- %69 = stablehlo.multiply %68, %54
    StableHlo.nullary main_c_15 (constantI S_ 32 0#32),  -- %c_15 = stablehlo.constant dense<0>
    StableHlo.unary main_c_15 main_v70 (broadcastInDim S850000 ![] bcast_S_S850000 : (⟨S_, .i32⟩ : BufTy).Contents (Elt F) → (⟨S850000, .i32⟩ : BufTy).Contents (Elt F)),  -- %70 = stablehlo.broadcast_in_dim %c_15, dims = []
    StableHlo.binary main_v52 main_v70 main_v71 (cmpi .slt : (⟨S850000, .i32⟩ : BufTy).Contents (Elt F) → (⟨S850000, .i32⟩ : BufTy).Contents (Elt F) → (⟨S850000, .i1⟩ : BufTy).Contents (Elt F)),  -- %71 = stablehlo.compare LT, %52, %70, SIGNED
    StableHlo.nullary main_c_16 (constantI S_ 32 50000#32),  -- %c_16 = stablehlo.constant dense<50000>
    StableHlo.unary main_c_16 main_v72 (broadcastInDim S850000 ![] bcast_S_S850000 : (⟨S_, .i32⟩ : BufTy).Contents (Elt F) → (⟨S850000, .i32⟩ : BufTy).Contents (Elt F)),  -- %72 = stablehlo.broadcast_in_dim %c_16, dims = []
    StableHlo.binary main_v52 main_v72 main_v73 (addi : (⟨S850000, .i32⟩ : BufTy).Contents (Elt F) → (⟨S850000, .i32⟩ : BufTy).Contents (Elt F) → (⟨S850000, .i32⟩ : BufTy).Contents (Elt F)),  -- %73 = stablehlo.add %52, %72
    StableHlo.ternary main_v71 main_v73 main_v52 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %74 = stablehlo.select %71, %73, %52
    StableHlo.unary main_v74 main_v75 (broadcastInDim S850000x1 ![0] bcast_S850000_S850000x1_0 : (⟨S850000, .i32⟩ : BufTy).Contents (Elt F) → (⟨S850000x1, .i32⟩ : BufTy).Contents (Elt F)),  -- %75 = stablehlo.broadcast_in_dim %74, dims = [0]
    StableHlo.binary main_v61 main_v75 main_v76 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),  -- %76 = "stablehlo.gather"(%61, %75)
    StableHlo.binary main_v69 main_v76 main_v77 (mulf : (⟨S850000, .f32⟩ : BufTy).Contents (Elt F) → (⟨S850000, .f32⟩ : BufTy).Contents (Elt F) → (⟨S850000, .f32⟩ : BufTy).Contents (Elt F)) ]  -- %77 = stablehlo.multiply %69, %76

/-- The second layer's dense product `%78 = %49 · %arg5`, contracting the feature axis. -/
abbrev opsDot2 : List (HloOp τ sig (Elt F)) :=
  [ StableHlo.binary main_v49 main_arg5 main_v78 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]  -- %78 = stablehlo.dot_general %49, %arg5, contracting_dims = [1] x [0], precision = [DEFAULT, DEFAULT]

/-- The second layer's aggregation: the rows of `%78` gathered at the wrapped source indices, scaled by `%77` and
    scatter-added at the target indices into zeros: `%91`. -/
abbrev opsAgg2 : List (HloOp τ sig (Elt F)) :=
  [ StableHlo.nullary main_c_17 (constantI S_ 32 0#32),  -- %c_17 = stablehlo.constant dense<0>
    StableHlo.unary main_c_17 main_v79 (broadcastInDim S850000 ![] bcast_S_S850000 : (⟨S_, .i32⟩ : BufTy).Contents (Elt F) → (⟨S850000, .i32⟩ : BufTy).Contents (Elt F)),  -- %79 = stablehlo.broadcast_in_dim %c_17, dims = []
    StableHlo.binary main_v51 main_v79 main_v80 (cmpi .slt : (⟨S850000, .i32⟩ : BufTy).Contents (Elt F) → (⟨S850000, .i32⟩ : BufTy).Contents (Elt F) → (⟨S850000, .i1⟩ : BufTy).Contents (Elt F)),  -- %80 = stablehlo.compare LT, %51, %79, SIGNED
    StableHlo.nullary main_c_18 (constantI S_ 32 50000#32),  -- %c_18 = stablehlo.constant dense<50000>
    StableHlo.unary main_c_18 main_v81 (broadcastInDim S850000 ![] bcast_S_S850000 : (⟨S_, .i32⟩ : BufTy).Contents (Elt F) → (⟨S850000, .i32⟩ : BufTy).Contents (Elt F)),  -- %81 = stablehlo.broadcast_in_dim %c_18, dims = []
    StableHlo.binary main_v51 main_v81 main_v82 (addi : (⟨S850000, .i32⟩ : BufTy).Contents (Elt F) → (⟨S850000, .i32⟩ : BufTy).Contents (Elt F) → (⟨S850000, .i32⟩ : BufTy).Contents (Elt F)),  -- %82 = stablehlo.add %51, %81
    StableHlo.ternary main_v80 main_v82 main_v51 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),  -- %83 = stablehlo.select %80, %82, %51
    StableHlo.unary main_v83 main_v84 (broadcastInDim S850000x1 ![0] bcast_S850000_S850000x1_0 : (⟨S850000, .i32⟩ : BufTy).Contents (Elt F) → (⟨S850000x1, .i32⟩ : BufTy).Contents (Elt F)),  -- %84 = stablehlo.broadcast_in_dim %83, dims = [0]
    StableHlo.binary main_v78 main_v84 main_v85 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),  -- %85 = "stablehlo.gather"(%78, %84)
    StableHlo.unary main_v77 main_v86 (broadcastInDim S850000x1 ![0] bcast_S850000_S850000x1_0 : (⟨S850000, .f32⟩ : BufTy).Contents (Elt F) → (⟨S850000x1, .f32⟩ : BufTy).Contents (Elt F)),  -- %86 = stablehlo.broadcast_in_dim %77, dims = [0]
    StableHlo.unary main_v86 main_v87 (broadcastInDim S850000x64 ![0, 1] bcast_S850000x1_S850000x64_0_1 : (⟨S850000x1, .f32⟩ : BufTy).Contents (Elt F) → (⟨S850000x64, .f32⟩ : BufTy).Contents (Elt F)),  -- %87 = stablehlo.broadcast_in_dim %86, dims = [0, 1]
    StableHlo.binary main_v85 main_v87 main_v88 (mulf : (⟨S850000x64, .f32⟩ : BufTy).Contents (Elt F) → (⟨S850000x64, .f32⟩ : BufTy).Contents (Elt F) → (⟨S850000x64, .f32⟩ : BufTy).Contents (Elt F)),  -- %88 = stablehlo.multiply %85, %87
    StableHlo.nullary main_cst_19 (constant S_ .f32 0x00000000#32),  -- %cst_19 = stablehlo.constant dense<0.000000e+00>
    StableHlo.unary main_cst_19 main_v89 (broadcastInDim S50000x64 ![] bcast_S_S50000x64 : (⟨S_, .f32⟩ : BufTy).Contents (Elt F) → (⟨S50000x64, .f32⟩ : BufTy).Contents (Elt F)),  -- %89 = stablehlo.broadcast_in_dim %cst_19, dims = []
    StableHlo.unary main_v52 main_v90 (broadcastInDim S850000x1 ![0] bcast_S850000_S850000x1_0 : (⟨S850000, .i32⟩ : BufTy).Contents (Elt F) → (⟨S850000x1, .i32⟩ : BufTy).Contents (Elt F)),  -- %90 = stablehlo.broadcast_in_dim %52, dims = [0]
    StableHlo.ternary main_v89 main_v90 main_v88 main_v91 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]  -- %91 = "stablehlo.scatter"(%89, %90, %88)

/-- The output: `%94 = %91 + %arg6` (the bias broadcast over the rows), the `softplus` call over `main_call3` —
    `max(x, 0) + log1p(exp(-|x - 0|))`, with `x + 0` selected where `x - 0` is not equal to itself — whose result is
    `%95`, and `%97 = %95 + 1e-4`. -/
abbrev opsOut : List (HloOp τ sig (Elt F)) :=
  [ StableHlo.unary main_arg6 main_v92 (broadcastInDim S1x64 ![1] bcast_S64_S1x64_1 : (⟨S64, .f32⟩ : BufTy).Contents (Elt F) → (⟨S1x64, .f32⟩ : BufTy).Contents (Elt F)),  -- %92 = stablehlo.broadcast_in_dim %arg6, dims = [1]
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),  -- %93 = stablehlo.broadcast_in_dim %92, dims = [0, 1]
    StableHlo.binary main_v91 main_v93 main_v94 (addf : (⟨S50000x64, .f32⟩ : BufTy).Contents (Elt F) → (⟨S50000x64, .f32⟩ : BufTy).Contents (Elt F) → (⟨S50000x64, .f32⟩ : BufTy).Contents (Elt F)),  -- %94 = stablehlo.add %91, %93
    StableHlo.TRef.nullary main_call3.cst (constant S_ .f32 0x00000000#32),  -- @softplus's %cst = stablehlo.constant dense<0.000000e+00>
    StableHlo.TRef.unary main_call3.cst main_call3.v0 (broadcastInDim S50000x64 ![] bcast_S_S50000x64),  -- @softplus's %0 = stablehlo.broadcast_in_dim %cst, dims = []
    StableHlo.TRef.binary (.of main_v94) main_call3.v0 main_call3.v1 maximumf,  -- @softplus's %1 = stablehlo.maximum %arg0, %0
    StableHlo.TRef.unary main_call3.cst main_call3.v2 (broadcastInDim S50000x64 ![] bcast_S_S50000x64),  -- @softplus's %2 = stablehlo.broadcast_in_dim %cst, dims = []
    StableHlo.TRef.binary (.of main_v94) main_call3.v2 main_call3.v3 subf,  -- @softplus's %3 = stablehlo.subtract %arg0, %2
    StableHlo.TRef.binary main_call3.v3 main_call3.v3 main_call3.v4 (cmpf .une),  -- @softplus's %4 = stablehlo.compare NE, %3, %3, FLOAT
    StableHlo.TRef.unary main_call3.cst main_call3.v5 (broadcastInDim S50000x64 ![] bcast_S_S50000x64),  -- @softplus's %5 = stablehlo.broadcast_in_dim %cst, dims = []
    StableHlo.TRef.binary (.of main_v94) main_call3.v5 main_call3.v6 addf,  -- @softplus's %6 = stablehlo.add %arg0, %5
    StableHlo.TRef.unary main_call3.v3 main_call3.v7 Host.absf,  -- @softplus's %7 = stablehlo.abs %3
    StableHlo.TRef.unary main_call3.v7 main_call3.v8 Host.negf,  -- @softplus's %8 = stablehlo.negate %7
    StableHlo.TRef.unary main_call3.v8 main_call3.v9 Host.exp,  -- @softplus's %9 = stablehlo.exponential %8
    StableHlo.TRef.unary main_call3.v9 main_call3.v10 Host.log1p,  -- @softplus's %10 = stablehlo.log_plus_one %9
    StableHlo.TRef.binary main_call3.v1 main_call3.v10 main_call3.v11 addf,  -- @softplus's %11 = stablehlo.add %1, %10
    StableHlo.TRef.ternary main_call3.v4 main_call3.v6 main_call3.v11 main_call3.v12 select,  -- @softplus's %12 = stablehlo.select %4, %6, %11
    StableHlo.nullary main_cst_20 (constant S_ .f32 0x38D1B717#32),  -- %cst_20 = stablehlo.constant dense<9.99999974E-5>
    StableHlo.unary main_cst_20 main_v96 (broadcastInDim S50000x64 ![] bcast_S_S50000x64 : (⟨S_, .f32⟩ : BufTy).Contents (Elt F) → (⟨S50000x64, .f32⟩ : BufTy).Contents (Elt F)),  -- %96 = stablehlo.broadcast_in_dim %cst_20, dims = []
    StableHlo.binary main_v95 main_v96 main_v97 (addf : (⟨S50000x64, .f32⟩ : BufTy).Contents (Elt F) → (⟨S50000x64, .f32⟩ : BufTy).Contents (Elt F) → (⟨S50000x64, .f32⟩ : BufTy).Contents (Elt F)) ]  -- %97 = stablehlo.add %95, %96

/-- `@main`'s operations in program order, every call written out: the eight segments one after the other. -/
abbrev ops : List (HloOp τ sig (Elt F)) :=
  opsNorm1 ++ opsDot1 ++ opsAgg1 ++ opsElu ++ opsNorm2 ++ opsDot2 ++ opsAgg2 ++ opsOut

/-! ## The fold over the segments -/

/-- The fold over two lines in a row is the second line's fold over the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold of all the operations is the eight segments' folds, one after the other. -/
theorem after_ops (V : Valuation τ sig (Elt F)) :
    after (ops (F := F)) V = after opsOut (after opsAgg2 (after opsDot2 (after opsNorm2 (after opsElu (after opsAgg1 (after opsDot1 (after opsNorm1 V))))))) := by
  simp only [after_app]

/-! ## The program is the list -/

-- some hundred and fifty binds are re-associated: the rewrite under the chain recurses once per statement
set_option maxRecDepth 4096 in
set_option maxHeartbeats 1000000 in
/-- `@main` is that straight line: its three windows in order, the functions' definitions unfolded at their calls and the
    records at their fields; once sequencing is re-associated both sides are one chain of the same steps. -/
theorem main_eq (c : Dev nD) : main (F := F) c = seq ops := by
  simp only [main, main_part0, main_part1, main_part2, fn_where.body, fn_where_0.body, fn_where_1.body, fn_elu.body,
    fn_softplus.body, ops, opsNorm1, opsDot1, opsAgg1, opsElu, opsNorm2, opsDot2, opsAgg2, opsOut,
    List.cons_append, List.nil_append, seq, bind_assoc, pure_bind]

/-! ## What the operations touch -/

/-- A property of every element of two lists holds of every element of their concatenation. -/
private theorem forall_app {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

private theorem subNorm1 : (opsNorm1 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..⟩

private theorem subDot1 : (opsDot1 : List (HloOp τ sig (Elt F))).Forall fun op => op.bufs ⊆ tcRefs τ sig :=
  binary_bufs_sub ..

private theorem subAgg1 : (opsAgg1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub ..⟩

private theorem subElu : (opsElu : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

private theorem subNorm2 : (opsNorm2 : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub ..⟩

private theorem subDot2 : (opsDot2 : List (HloOp τ sig (Elt F))).Forall fun op => op.bufs ⊆ tcRefs τ sig :=
  binary_bufs_sub ..

private theorem subAgg2 : (opsAgg2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub ..⟩

private theorem subOut : (opsOut : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., nullary_bufs_sub ..,
    unary_bufs_sub .., binary_bufs_sub ..⟩

/-- Every operation touches TensorCore references only. -/
theorem ops_sub : (ops : List (HloOp τ sig (Elt F))).Forall fun op => op.bufs ⊆ tcRefs τ sig :=
  forall_app (forall_app (forall_app (forall_app (forall_app (forall_app (forall_app subNorm1 subDot1) subAgg1) subElu) subNorm2) subDot2) subAgg2) subOut

private theorem freshNorm1 : (opsNorm1 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl⟩

private theorem freshDot1 : (opsDot1 : List (HloOp τ sig (Elt F))).Forall fun op => op.fresh = ∅ :=
  rfl

private theorem freshAgg1 : (opsAgg1 : List (HloOp τ sig (Elt F))).Forall fun op => op.fresh = ∅ :=
  ⟨rfl, rfl, rfl, rfl, rfl, rfl,
    rfl, rfl, rfl, rfl, rfl, rfl,
    rfl, rfl, rfl, rfl⟩

private theorem freshElu : (opsElu : List (HloOp τ sig (Elt F))).Forall fun op => op.fresh = ∅ :=
  ⟨rfl, rfl, rfl, rfl, rfl, rfl,
    rfl, rfl, rfl, rfl, rfl, rfl,
    rfl, rfl, rfl, rfl, rfl, rfl⟩

private theorem freshNorm2 : (opsNorm2 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl⟩

private theorem freshDot2 : (opsDot2 : List (HloOp τ sig (Elt F))).Forall fun op => op.fresh = ∅ :=
  rfl

private theorem freshAgg2 : (opsAgg2 : List (HloOp τ sig (Elt F))).Forall fun op => op.fresh = ∅ :=
  ⟨rfl, rfl, rfl, rfl, rfl, rfl,
    rfl, rfl, rfl, rfl, rfl, rfl,
    rfl, rfl, rfl, rfl⟩

private theorem freshOut : (opsOut : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl⟩

/-- Every operation determines its results: none leaves a buffer at contents not chosen. -/
private theorem ops_fresh : ∀ op ∈ (ops : List (HloOp τ sig (Elt F))), op.fresh = ∅ :=
  List.forall_iff_forall_mem.mp
    (forall_app (forall_app (forall_app (forall_app (forall_app (forall_app (forall_app freshNorm1 freshDot1) freshAgg1) freshElu) freshNorm2) freshDot2) freshAgg2) freshOut)

/-! ## The run -/

/-- The signature scopes no TensorCore buffer and no semaphore. -/
private theorem scopedRefs_eq : (Finset.univ.filter fun b : Ref sig .tc => b.isScoped) = ∅ := by decide
private theorem scopedSems_eq : (Finset.univ.filter fun sm : SemLoc sig => sm.isScoped .tc) = ∅ := by decide

/-- At the compiled mesh, for any float values, from any memory with zero counters: every weakly fair execution of
    `@main` on the TensorCore terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefArgs.lean ====
/-
  No operation of the reference writes an argument buffer: after the whole run each of the seven arguments holds what
  it was launched with.
-/
import proofs.«158829_j43301860278532_2_alg».proof.Proof.RefRun

set_option maxRecDepth 8192

noncomputable section

namespace Cert.ReferenceIdeal.RefArgs

open Cert.ReferenceIdeal Cert.ReferenceIdeal.RefRun
open Idealize.ShloMosaic Idealize.ShloMosaic.TcCoe Idealize.SL.Sem Idealize.ShloMosaic.StableHlo

variable {F : FTy → Type} [FloatOps F] (X : Valuation τ sig (Elt F))

theorem keep_arg0 : after (ops (F := F)) X (Proc.devRef .tc main_arg0) = X (Proc.devRef .tc main_arg0) := by
  rw [after_ops]; after_results_simp
theorem keep_arg1 : after (ops (F := F)) X (Proc.devRef .tc main_arg1) = X (Proc.devRef .tc main_arg1) := by
  rw [after_ops]; after_results_simp
theorem keep_arg2 : after (ops (F := F)) X (Proc.devRef .tc main_arg2) = X (Proc.devRef .tc main_arg2) := by
  rw [after_ops]; after_results_simp
theorem keep_arg3 : after (ops (F := F)) X (Proc.devRef .tc main_arg3) = X (Proc.devRef .tc main_arg3) := by
  rw [after_ops]; after_results_simp
theorem keep_arg4 : after (ops (F := F)) X (Proc.devRef .tc main_arg4) = X (Proc.devRef .tc main_arg4) := by
  rw [after_ops]; after_results_simp
theorem keep_arg5 : after (ops (F := F)) X (Proc.devRef .tc main_arg5) = X (Proc.devRef .tc main_arg5) := by
  rw [after_ops]; after_results_simp
theorem keep_arg6 : after (ops (F := F)) X (Proc.devRef .tc main_arg6) = X (Proc.devRef .tc main_arg6) := by
  rw [after_ops]; after_results_simp

end Cert.ReferenceIdeal.RefArgs

end
-- ==== Proof.Spec.lean ====
/-
  The mathematics shared by the two programs, over the extended reals.

  * `matProd x w`: the matrix product, entry (r, c) the sum over k of x(r, k) · w(k, c). A matrix product with one
    contracted axis (the left operand's columns against the right operand's rows), whether accumulated into a zero
    accumulator or computed with none, is this sum at every entry (`dot_eq_matProd`, `matmul_eq_matProd`).
  * elu at one value in two spellings: `eluK v` = v where v > 0, else exp v − 1; `eluR v` = v where v > 0, else
    1 · expm1 (0 where v > 0, else v). They agree everywhere (`elu_eq`): the inner selection is v on the branch that
    uses it, expm1 is exp − 1, and 1 · y = y on the extended reals.
  * softplus plus a fixed constant at one value in two spellings, both max v 0 + log1p (exp (−|v − 0|)) behind a test
    "v − 0 ≠ v − 0" that never fires; the one negates by 0 − y, the other by −y, and 0 − y = −y on the extended reals
    (`sp_eq`).
-/
import Idealize.ShloMosaic.PureOps.Ideal
import Idealize.ShloMosaic.PureOps.Ideal.Laws
import Idealize.ShloMosaic.Lib.ValueIdx
import Idealize.ShloMosaic.Lib.KernelVsHost

noncomputable section

open scoped BigOperators

namespace Cert.GcnSpec

open Idealize.ShloMosaic Idealize.ShloMosaic.ValueIdx

/-! ## The matrix product -/

/-- Entry (r, c) of the product: the sum over k of x(r, k) · w(k, c). -/
def matProd {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0 : Fin M) k) * w (ix2 k (i 1 : Fin N))

theorem matProd_apply {M K N : Nat} (x : (⟨2, ![M, K]⟩ : Shape).Idx → EReal) (w : (⟨2, ![K, N]⟩ : Shape).Idx → EReal)
    (r : Fin M) (c : Fin N) : matProd x w (ix2 r c) = ∑ k : Fin K, x (ix2 r k) * w (ix2 k c) := rfl

/-- A contraction over one axis, the left operand's axis 1 against the right operand's axis 0, rows and columns kept
    in order, is the matrix product: the contraction index is its one coordinate. -/
theorem contraction_eq_matProd {M K N : Nat} (d : DotDims ⟨2, ![M, K]⟩ ⟨2, ![K, N]⟩ ⟨2, ![M, N]⟩)
    (hr : d.contr.rank = 1) (hs : d.contr.size ⟨0, by omega⟩ = K)
    (h1 : ∀ j k, (d.lhsIdx j k 0).val = (j 0).val) (h2 : ∀ j k, (d.lhsIdx j k 1).val = (k ⟨0, by omega⟩).val)
    (h3 : ∀ j k, (d.rhsIdx j k 0).val = (k ⟨0, by omega⟩).val) (h4 : ∀ j k, (d.rhsIdx j k 1).val = (j 1).val)
    (x : (⟨2, ![M, K]⟩ : Shape).Idx → EReal) (w : (⟨2, ![K, N]⟩ : Shape).Idx → EReal) (j : (⟨2, ![M, N]⟩ : Shape).Idx) :
    ∑ k : d.contr.Idx, x (d.lhsIdx j k) * w (d.rhsIdx j k) = matProd x w j := by
  unfold matProd
  rw [← Equiv.sum_comp (contrEquiv1 d K hr hs).symm]
  refine Finset.sum_congr rfl fun k _ => ?_
  have e1 : d.lhsIdx j ((contrEquiv1 d K hr hs).symm k) = ix2 (j 0 : Fin M) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1 : Fin N) := by
    funext a
    match a with
    | ⟨0, _⟩ => exact Fin.ext ((h3 j _).trans (contrEquiv1_symm_val d K hr hs k))
    | ⟨1, _⟩ => exact Fin.ext (h4 j _)
  rw [e1, e2]
  rfl

/-- The host's product with no accumulator is the matrix product. -/
theorem dot_eq_matProd {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (h1 : ∀ j k, (d.lhsIdx j k 0).val = (j 0).val) (h2 : ∀ j k, (d.lhsIdx j k 1).val = (k ⟨0, by omega⟩).val)
    (h3 : ∀ j k, (d.rhsIdx j k 0).val = (k ⟨0, by omega⟩).val) (h4 : ∀ j k, (d.rhsIdx j k 1).val = (j 1).val)
    (x : FVec Ideal ⟨2, ![M, K]⟩ φ₁) (w : FVec Ideal ⟨2, ![K, N]⟩ φ₂) :
    Host.dotGeneral d none x w = matProd x w := by
  funext j
  show FloatOps.dotGeneral d none _ x w j = _
  rw [Ideal.dotGeneral_apply]
  exact contraction_eq_matProd d hr hs h1 h2 h3 h4 x w j

/-- A kernel's product accumulated into a zero accumulator is the matrix product. -/
theorem matmul_eq_matProd {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (h1 : ∀ j k, (d.lhsIdx j k 0).val = (j 0).val) (h2 : ∀ j k, (d.lhsIdx j k 1).val = (k ⟨0, by omega⟩).val)
    (h3 : ∀ j k, (d.rhsIdx j k 0).val = (k ⟨0, by omega⟩).val) (h4 : ∀ j k, (d.rhsIdx j k 1).val = (j 1).val)
    (x : FVec Ideal ⟨2, ![M, K]⟩ φ₁) (w : FVec Ideal ⟨2, ![K, N]⟩ φ₂) :
    matmul d none x w (constant ⟨2, ![M, N]⟩ .f32 0x00000000#32) = matProd x w := by
  funext j
  show FloatOps.matmul d none x w (constant ⟨2, ![M, N]⟩ .f32 0x00000000#32) j = _
  rw [Ideal.matmul_constant_zero_apply]
  exact contraction_eq_matProd d hr hs h1 h2 h3 h4 x w j

/-! ## The literals -/

theorem one_f32 : Ideal.ofBits .f32 0x3F800000#32 = 1 := by
  simp [Ideal.ofBits, Ideal.ieee]
  norm_cast
  norm_num

/-! ## elu at one value -/

/-- v where v > 0, else exp v − 1. -/
def eluK (v : Ideal .f32) : Ideal .f32 :=
  Scalar.select (FloatOps.cmpf .ogt v (Scalar.ofBits .f32 0x00000000#32)) v
    (FloatOps.subf (FloatOps.exp v) (Scalar.ofBits .f32 0x3F800000#32))

/-- v where v > 0, else 1 · expm1 (0 where v > 0, else v). -/
def eluR (v : Ideal .f32) : Ideal .f32 :=
  Scalar.select (FloatOps.cmpf .ogt v (FloatOps.ofBits .f32 0x00000000#32)) v
    (FloatOps.mulf (FloatOps.ofBits .f32 0x3F800000#32)
      (FloatOps.hostUnary .expm1
        (Scalar.select (FloatOps.cmpf .ogt v (FloatOps.ofBits .f32 0x00000000#32)) (FloatOps.ofBits .f32 0x00000000#32) v)))

theorem elu_eq (v : Ideal .f32) : eluK v = eluR v := by
  unfold eluK eluR
  show Scalar.select (Ideal.cmp .ogt v (Ideal.ofBits .f32 0x00000000#32)) v (Ideal.exp v - Ideal.ofBits .f32 0x3F800000#32)
    = Scalar.select (Ideal.cmp .ogt v (Ideal.ofBits .f32 0x00000000#32)) v
        (Ideal.ofBits .f32 0x3F800000#32 * (Ideal.exp (Scalar.select (Ideal.cmp .ogt v (Ideal.ofBits .f32 0x00000000#32)) (Ideal.ofBits .f32 0x00000000#32) v) - 1))
  rcases BitVec.eq_zero_or_eq_one (Ideal.cmp .ogt v (Ideal.ofBits .f32 0x00000000#32)) with h | h
  · rw [h, select_zero, select_zero, select_zero, one_f32, one_mul]
  · rw [h, select_one, select_one]

/-! ## softplus plus the fixed constant, at one value -/

/-- As a kernel body spells it: the negation is 0 − y, the never-firing test an ordered "not equal". -/
def spK (v : Ideal .f32) : Ideal .f32 :=
  FloatOps.addf
    (Scalar.select
      (FloatOps.cmpf .one (FloatOps.subf v (Scalar.ofBits .f32 0x00000000#32)) (FloatOps.subf v (Scalar.ofBits .f32 0x00000000#32)))
      (FloatOps.addf v (Scalar.ofBits .f32 0x00000000#32))
      (FloatOps.addf (FloatOps.maximumf v (Scalar.ofBits .f32 0x00000000#32))
        (FloatOps.log1p (FloatOps.exp (FloatOps.subf (Scalar.ofBits .f32 0x00000000#32)
          (FloatOps.absf (FloatOps.subf v (Scalar.ofBits .f32 0x00000000#32))))))))
    (Scalar.ofBits .f32 0x38D1B717#32)

/-- As the host spells it: the negation is −y, the never-firing test an unordered "not equal". -/
def spR (v : Ideal .f32) : Ideal .f32 :=
  FloatOps.addf
    (Scalar.select
      (FloatOps.cmpf .une (FloatOps.subf v (FloatOps.ofBits .f32 0x00000000#32)) (FloatOps.subf v (FloatOps.ofBits .f32 0x00000000#32)))
      (FloatOps.addf v (FloatOps.ofBits .f32 0x00000000#32))
      (FloatOps.addf (FloatOps.maximumf v (FloatOps.ofBits .f32 0x00000000#32))
        (FloatOps.hostUnary .log1p (FloatOps.hostUnary .exp (FloatOps.hostNegf
          (FloatOps.hostAbsf (FloatOps.subf v (FloatOps.ofBits .f32 0x00000000#32))))))))
    (FloatOps.ofBits .f32 0x38D1B717#32)

theorem sp_eq (v : Ideal .f32) : spK v = spR v := by
  unfold spK spR
  show Scalar.select (Ideal.cmp .one (v - Ideal.ofBits .f32 0x00000000#32) (v - Ideal.ofBits .f32 0x00000000#32))
        (v + Ideal.ofBits .f32 0x00000000#32)
        (max v (Ideal.ofBits .f32 0x00000000#32) + Ideal.log1p (Ideal.exp (Ideal.ofBits .f32 0x00000000#32
          - max (v - Ideal.ofBits .f32 0x00000000#32) (-(v - Ideal.ofBits .f32 0x00000000#32)))))
        + Ideal.ofBits .f32 0x38D1B717#32
    = Scalar.select (Ideal.cmp .une (v - Ideal.ofBits .f32 0x00000000#32) (v - Ideal.ofBits .f32 0x00000000#32))
        (v + Ideal.ofBits .f32 0x00000000#32)
        (max v (Ideal.ofBits .f32 0x00000000#32) + Ideal.log1p (Ideal.exp
          (-(max (v - Ideal.ofBits .f32 0x00000000#32) (-(v - Ideal.ofBits .f32 0x00000000#32))))))
        + Ideal.ofBits .f32 0x38D1B717#32
  rw [Ideal.ofBits_zero_f32, zero_sub]
  rfl

end Cert.GcnSpec

end
-- ==== Proof.KRegion0.lean ====
/-
  The first kernel region (a row-tiled matrix product): what its output array holds when the region ends, as ONE
  function of the arrays the region finds on entry. The grid has ten points; point t reads rows 5000·t … 5000·t + 4999
  of the left operand and the whole right operand, and writes back rows 5000·t … 5000·t + 4999 of the output. A row of a
  product depends only on the same row of the left operand, so block t of the output is block t of the whole product,
  and the ten blocks cover the output: the array ends at the whole product.
-/
import proofs.«158829_j43301860278532_2_alg».proof.Proof.Gen.KernelIdeal.Frame
import proofs.«158829_j43301860278532_2_alg».proof.Proof.Spec
import Idealize.ShloMosaic.Lib.Pipeline.Value

set_option maxRecDepth 16384

noncomputable section

namespace Cert.KernelIdeal.Region0

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's payload is the product of its two loaded blocks (a change of float format is the identity, the
    accumulator is zero). -/
theorem pay_eq (x0 : Vec Ideal S5000x128 .f32) (x1 : Vec Ideal S128x128 .bf16) :
    k0_pay1 x0 x1 = matProd (M := 5000) (K := 128) (N := 128) x0 x1 := by
  unfold k0_pay1
  rw [shapeCast_self]
  exact matmul_eq_matProd (M := 5000) (K := 128) (N := 128) dot_S5000x128_S128x128_S5000x128_1_0_0_1_n_n rfl rfl
    (fun _ _ => rfl) (fun _ _ => rfl) (fun _ _ => rfl) (fun _ _ => rfl) x0 x1

/-- The printed index maps, decided over the grid: the left operand's and the output's blocks move down the rows with
    the point, the right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 V c).flushed 2 t = ((cfg0.win 2).blk t).view.read (Elt Ideal)
      (matProd (M := 50000) (K := 128) (N := 128) (V c main_arg0) (V c main_v32)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay_eq]
  obtain ⟨e0, e1, e2, e3, e4, e5⟩ := idx_facts t
  funext j
  show matProd (M := 5000) (K := 128) (N := 128) (iblk0 V c 0 t) (iblk0 V c 1 t) j
      = matProd (M := 50000) (K := 128) (N := 128) (V c main_arg0) (V c main_v32) (((cfg0.win 2).blk t).view.emb j)
  unfold matProd
  refine Finset.sum_congr rfl fun k _ => ?_
  have h0 : ((cfg0.win 0).blk t).view.emb (ix2 (j 0 : Fin 5000) k) = ix2 ((((cfg0.win 2).blk t).view.emb j) 0 : Fin 50000) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1 : Fin 128)) = ix2 k ((((cfg0.win 2).blk t).view.emb j) 1 : Fin 128) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  refine congrArg₂ (· * ·) ?_ ?_
  · exact congrArg (V c main_arg0) h0
  · exact congrArg (V c main_v32) h1

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Row r of the output is written back by point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array when the region ends: the whole product of the arrays the region finds. -/
theorem final (c : Dev nD) :
    (dat0 V c).arrAt 2 cfg0.N = matProd (M := 50000) (K := 128) (N := 128) (V c main_arg0) (V c main_v32) :=
  (dat0 V c).arrAt_eq_of_cover 2 _ (fun t _ => flushed_eq V c t) cover

end Cert.KernelIdeal.Region0

end
-- ==== Proof.KRegion1.lean ====
/-
  The second kernel region (bias, elu, then a row-tiled matrix product): what its output array holds when the region
  ends, as ONE function of the arrays the region finds on entry. Point t of the ten reads rows 5000·t … 5000·t + 4999 of
  the aggregated array, the one-row bias and the whole weight matrix; it adds the bias to every row, applies elu entry by
  entry and multiplies by the weights. A row of the result depends only on the same row of the aggregated array, so block
  t of the output is block t of the whole product of the whole activated array, and the ten blocks cover the output.
-/
import proofs.«158829_j43301860278532_2_alg».proof.Proof.Gen.KernelIdeal.Frame
import proofs.«158829_j43301860278532_2_alg».proof.Proof.Spec
import Idealize.ShloMosaic.Lib.Pipeline.Value

set_option maxRecDepth 16384

noncomputable section

namespace Cert.KernelIdeal.Region1

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The activated array: elu of the aggregated entry plus the bias entry of its column. -/
def act {M : Nat} (a : (⟨2, ![M, 128]⟩ : Shape).Idx → EReal) (b : S1x128.Idx → EReal) : (⟨2, ![M, 128]⟩ : Shape).Idx → EReal :=
  fun i => eluK (FloatOps.addf (F := Ideal) (φ := .f32) (a i) (b (ix2 (0 : Fin 1) (i 1 : Fin 128))))

/-- The output as one function of the aggregated array, the one-row bias and the weights. -/
def G (a : S50000x128.Idx → EReal) (b : S1x128.Idx → EReal) (w : S128x64.Idx → EReal) : S50000x64.Idx → EReal :=
  matProd (M := 50000) (K := 128) (N := 64) (act (M := 50000) a b) w

/-- A one-row block broadcast down the rows reads, at (r, k), the row's entry k. -/
theorem bcast_apply (v2 : Vec Ideal S1x128 .f32) (j : S5000x128.Idx) :
    broadcastTo S5000x128 v2 broadcasts_S1x128_S5000x128 j = v2 (ix2 (0 : Fin 1) (j 1 : Fin 128)) :=
  broadcastTo_apply v2 broadcasts_S1x128_S5000x128 j (ix2 (0 : Fin 1) (j 1 : Fin 128)) (by
    intro a
    match a with
    | ⟨0, _⟩ => rfl
    | ⟨1, _⟩ => rfl)

/-- The body's payload is the product of the activated block and the weights (a change of float format is the identity,
    the accumulator is zero). -/
theorem pay_eq (v0 : Vec Ideal S5000x128 .f32) (v2 : Vec Ideal S1x128 .f32) (v14 : Vec Ideal S128x64 .bf16) :
    k1_pay1 v0 v2 v14 = matProd (M := 5000) (K := 128) (N := 64) (act (M := 5000) v0 v2) v14 := by
  unfold k1_pay1
  simp only [shapeCast_self]
  refine (matmul_eq_matProd (M := 5000) (K := 128) (N := 64) dot_S5000x128_S128x64_S5000x64_1_0_0_1_n_n rfl rfl
    (fun _ _ => rfl) (fun _ _ => rfl) (fun _ _ => rfl) (fun _ _ => rfl) _ v14).trans ?_
  refine congrArg (fun x => matProd (M := 5000) (K := 128) (N := 64) x v14) (funext fun i => ?_)
  show eluK (FloatOps.addf (F := Ideal) (φ := .f32) (v0 i) (broadcastTo S5000x128 v2 broadcasts_S1x128_S5000x128 i)) = _
  rw [bcast_apply]
  rfl

/-- The printed index maps, decided over the grid. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole function of the arrays the region finds. -/
theorem flushed_eq (c : Dev nD) (t : Fin cfg1.N) :
    (dat1 V c).flushed 3 t = ((cfg1.win 3).blk t).view.read (Elt Ideal) (G (V c main_v47) (V c main_v48) (V c main_v33)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x64) hz]
  rw [pay_eq]
  obtain ⟨e0, e1, e2, e3, e4, e5, e6, e7⟩ := idx_facts t
  funext j
  show matProd (M := 5000) (K := 128) (N := 64) (act (M := 5000) (iblk1 V c 0 t) (iblk1 V c 1 t)) (iblk1 V c 2 t) j
      = matProd (M := 50000) (K := 128) (N := 64) (act (M := 50000) (V c main_v47) (V c main_v48)) (V c main_v33) (((cfg1.win 3).blk t).view.emb j)
  unfold matProd act
  refine Finset.sum_congr rfl fun k _ => ?_
  have h0 : ((cfg1.win 0).blk t).view.emb (ix2 (j 0 : Fin 5000) k) = ix2 ((((cfg1.win 3).blk t).view.emb j) 0 : Fin 50000) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (ix2 k (j 1 : Fin 64)) = ix2 k ((((cfg1.win 3).blk t).view.emb j) 1 : Fin 64) := by
    funext a; apply Fin.ext
    match a with
    | ⟨0, _⟩ => show win1_2.index t (0 : Fin 2) * 128 + 1 * k.val = k.val; omega
    | ⟨1, _⟩ => show win1_2.index t (1 : Fin 2) * 64 + 1 * (j 1).val = win1_3.index t (1 : Fin 2) * 64 + 1 * (j 1).val; omega
  refine congrArg₂ (· * ·) (congrArg eluK (congrArg₂ (FloatOps.addf (F := Ideal) (φ := .f32)) ?_ ?_)) ?_
  · exact congrArg (V c main_v47) h0
  · exact congrArg (V c main_v48) h1
  · exact congrArg (V c main_v33) h2

/-- An index of the output array is in point `t`'s block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v49).slice (win1_3.rect t)).set ↔ _
  rw [View.set_slice_whole, Rect.mem_set_unit]
  exact Iff.rfl

/-- Row r of the output is written back by point r / 5000. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨e0, e1, e2, e3, e4, e5, e6, e7⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array when the region ends: the whole function of the arrays the region finds. -/
theorem final (c : Dev nD) : (dat1 V c).arrAt 3 cfg1.N = G (V c main_v47) (V c main_v48) (V c main_v33) :=
  (dat1 V c).arrAt_eq_of_cover 3 _ (fun t _ => flushed_eq V c t) cover

end Cert.KernelIdeal.Region1

end
-- ==== Proof.KRegion2.lean ====
/-
  The third kernel region (pointwise): what its output array holds when the region ends, as ONE function of the arrays
  the region finds on entry. Point t of the ten reads rows 5000·t … 5000·t + 4999 of the aggregated array and the one-row
  bias, and writes back the same rows of the output; entry (r, c) of the output is softplus-plus-the-constant of the
  aggregated entry (r, c) plus the bias entry c, which depends on no other entry, so block t of the output is block t
  of the whole pointwise function, and the ten blocks cover the output.
-/
import proofs.«158829_j43301860278532_2_alg».proof.Proof.Gen.KernelIdeal.Frame
import proofs.«158829_j43301860278532_2_alg».proof.Proof.Spec
import Idealize.ShloMosaic.Lib.Pipeline.Value

set_option maxRecDepth 16384

noncomputable section

namespace Cert.KernelIdeal.Region2

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output as one function of the aggregated array and the one-row bias. -/
def G (a : S50000x64.Idx → EReal) (b : S1x64.Idx → EReal) : S50000x64.Idx → EReal :=
  fun i => spK (FloatOps.addf (F := Ideal) (φ := .f32) (a i) (b (ix2 (0 : Fin 1) (i 1 : Fin 64))))

/-- A one-row block broadcast down the rows reads, at (r, q), the row's entry q. -/
theorem bcast_apply (v0 : Vec Ideal S1x64 .f32) (j : S5000x64.Idx) :
    broadcastTo S5000x64 v0 broadcasts_S1x64_S5000x64 j = v0 (ix2 (0 : Fin 1) (j 1 : Fin 64)) :=
  broadcastTo_apply v0 broadcasts_S1x64_S5000x64 j (ix2 (0 : Fin 1) (j 1 : Fin 64)) (by
    intro a
    match a with
    | ⟨0, _⟩ => rfl
    | ⟨1, _⟩ => rfl)

/-- The body's payload at an entry: the pointwise function of the loaded block's entry and the bias row's entry. -/
theorem pay_apply (v0 : Vec Ideal S1x64 .f32) (v4 : Vec Ideal S5000x64 .f32) (j : S5000x64.Idx) :
    k2_pay1 v0 v4 j = spK (FloatOps.addf (F := Ideal) (φ := .f32) (v4 j) (v0 (ix2 (0 : Fin 1) (j 1 : Fin 64)))) := by
  unfold k2_pay1
  simp only [shapeCast_self]
  show spK (FloatOps.addf (F := Ideal) (φ := .f32) (v4 j) (broadcastTo S5000x64 v0 broadcasts_S1x64_S5000x64 j)) = _
  rw [bcast_apply]

/-- The printed index maps, decided over the grid. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole pointwise function of the arrays the region finds. -/
theorem flushed_eq (c : Dev nD) (t : Fin cfg2.N) :
    (dat2 V c).flushed 2 t = ((cfg2.win 2).blk t).view.read (Elt Ideal) (G (V c main_v62) (V c main_v63)) := by
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  obtain ⟨e0, e1, e2, e3, e4, e5⟩ := idx_facts t
  funext j
  show k2_pay1 (iblk2 V c 1 t) (iblk2 V c 0 t) j = G (V c main_v62) (V c main_v63) (((cfg2.win 2).blk t).view.emb j)
  refine (pay_apply (iblk2 V c 1 t) (iblk2 V c 0 t) j).trans ?_
  unfold G
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (0 : Fin 1) (j 1 : Fin 64)) = ix2 (0 : Fin 1) ((((cfg2.win 2).blk t).view.emb j) 1 : Fin 64) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega
  refine congrArg spK (congrArg₂ (FloatOps.addf (F := Ideal) (φ := .f32)) ?_ ?_)
  · exact congrArg (V c main_v62) h0
  · exact congrArg (V c main_v63) h1

/-- An index of the output array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v64).slice (win2_2.rect t)).set ↔ _
  rw [View.set_slice_whole, Rect.mem_set_unit]
  exact Iff.rfl

/-- Row r of the output is written back by point r / 5000. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array when the region ends: the whole pointwise function of the arrays the region finds. -/
theorem final (c : Dev nD) : (dat2 V c).arrAt 2 cfg2.N = G (V c main_v62) (V c main_v63) :=
  (dat2 V c).arrAt_eq_of_cover 2 _ (fun t _ => flushed_eq V c t) cover

end Cert.KernelIdeal.Region2

end
-- ==== Proof.KHost.lean ====
/-
  The kernel program's host stretches, read at the buffers the three kernel regions take their operands from. At the
  ideal values a conversion of the weights to another float format is the identity, so the two weight operands are the
  weight arguments themselves; a bias vector reshaped to one row reads, at row 0 and column k, the vector's entry k;
  and a buffer a stretch does not write keeps its contents.
-/
import proofs.«158829_j43301860278532_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.KHost

open Cert.KernelIdeal Cert.KernelIdeal.Gen
open Idealize.ShloMosaic Idealize.ShloMosaic.TcCoe Idealize.SL.Sem Idealize.ShloMosaic.StableHlo Idealize.ShloMosaic.ValueIdx

/-- Reads what the one-pass reading leaves inside a concatenation's operand list. -/
macro "ar_finish" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

variable (V : Valuation τ sig (Elt Ideal))

/-- The stretches before the first region, composed. -/
abbrev pre (V : Valuation τ sig (Elt Ideal)) : Valuation τ sig (Elt Ideal) :=
  after hostOps0_2 (after hostOps0_1 (after (hostOps0 (F := Ideal)) V))

/-! ## Before the first region -/

theorem pre_v32 : (pre V (Proc.devRef .tc main_v32) : S128x128.Idx → EReal) = V (Proc.devRef .tc main_arg3) := by
  unfold pre; after_results_simp; rfl
theorem pre_v33 : (pre V (Proc.devRef .tc main_v33) : S128x64.Idx → EReal) = V (Proc.devRef .tc main_arg5) := by
  unfold pre; after_results_simp; rfl
theorem pre_arg0 : pre V (Proc.devRef .tc main_arg0) = V (Proc.devRef .tc main_arg0) := by
  unfold pre; after_results_simp
theorem pre_arg4 : pre V (Proc.devRef .tc main_arg4) = V (Proc.devRef .tc main_arg4) := by
  unfold pre; after_results_simp
theorem pre_arg6 : pre V (Proc.devRef .tc main_arg6) = V (Proc.devRef .tc main_arg6) := by
  unfold pre; after_results_simp

/-! ## Between the first and the second region -/

theorem mid1_v48 (k : Fin 128) :
    (after (hostOps1 (F := Ideal)) V (Proc.devRef .tc main_v48) : S1x128.Idx → EReal) (ix2 (0 : Fin 1) k)
      = (V (Proc.devRef .tc main_arg4) : S128.Idx → EReal) (ix1 k) := by
  after_results_simp
  refine shapeCast_apply _ _ _ _ ?_
  show ((⟨1, ![128]⟩ : Shape).rowMajor (ix1 k)).val = ((⟨2, ![1, 128]⟩ : Shape).rowMajor (ix2 (0 : Fin 1) k)).val
  rw [Shape.rowMajor_val_one, Shape.rowMajor_val_two]
  show k.val = 0 * 128 + k.val
  omega
theorem mid1_v5 : after (hostOps1 (F := Ideal)) V (Proc.devRef .tc main_v5) = V (Proc.devRef .tc main_v5) := by after_results_simp
theorem mid1_v6 : after (hostOps1 (F := Ideal)) V (Proc.devRef .tc main_v6) = V (Proc.devRef .tc main_v6) := by after_results_simp
theorem mid1_v31 : after (hostOps1 (F := Ideal)) V (Proc.devRef .tc main_v31) = V (Proc.devRef .tc main_v31) := by after_results_simp
theorem mid1_v33 : after (hostOps1 (F := Ideal)) V (Proc.devRef .tc main_v33) = V (Proc.devRef .tc main_v33) := by after_results_simp
theorem mid1_arg6 : after (hostOps1 (F := Ideal)) V (Proc.devRef .tc main_arg6) = V (Proc.devRef .tc main_arg6) := by after_results_simp

/-! ## Between the second and the third region -/

theorem mid2_v63 (q : Fin 64) :
    (after (hostOps2 (F := Ideal)) V (Proc.devRef .tc main_v63) : S1x64.Idx → EReal) (ix2 (0 : Fin 1) q)
      = (V (Proc.devRef .tc main_arg6) : S64.Idx → EReal) (ix1 q) := by
  after_results_simp
  refine shapeCast_apply _ _ _ _ ?_
  show ((⟨1, ![64]⟩ : Shape).rowMajor (ix1 q)).val = ((⟨2, ![1, 64]⟩ : Shape).rowMajor (ix2 (0 : Fin 1) q)).val
  rw [Shape.rowMajor_val_one, Shape.rowMajor_val_two]
  show q.val = 0 * 64 + q.val
  omega

end Cert.KernelIdeal.KHost

end
-- ==== Proof.KValue.lean ====
/-
  The kernel program's buffer contents at its segment boundaries, read at the buffers that matter, in terms of the launch
  memory. After the first region the product buffer holds the product of the features and the first weights. Between the
  regions the host stretches leave the edge lists and the edge normalisation as the first stretches computed them, the
  reshaped biases at the bias arguments and the converted weights at the weight arguments. After the second region its
  output holds the product of the activated aggregate and the second weights; after the third, the result buffer holds
  the pointwise function of the second aggregate and the second bias.
-/
import proofs.«158829_j43301860278532_2_alg».proof.Proof.KRegion0
import proofs.«158829_j43301860278532_2_alg».proof.Proof.KRegion1
import proofs.«158829_j43301860278532_2_alg».proof.Proof.KRegion2
import proofs.«158829_j43301860278532_2_alg».proof.Proof.KHost

set_option maxRecDepth 16384

noncomputable section

namespace Cert.KernelIdeal.KValue

open Cert.KernelIdeal Cert.KernelIdeal.Gen Cert.GcnSpec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Entering the first region -/

theorem w3_arg0 : W3 m ρ c (Proc.devRef .tc main_arg0) = m ((c : Thread nD τ).loc main_arg0) := KHost.pre_arg0 (W0 m ρ c)
theorem w3_arg4 : W3 m ρ c (Proc.devRef .tc main_arg4) = m ((c : Thread nD τ).loc main_arg4) := KHost.pre_arg4 (W0 m ρ c)
theorem w3_arg6 : W3 m ρ c (Proc.devRef .tc main_arg6) = m ((c : Thread nD τ).loc main_arg6) := KHost.pre_arg6 (W0 m ρ c)
theorem w3_v32 : (W3 m ρ c (Proc.devRef .tc main_v32) : S128x128.Idx → EReal) = m ((c : Thread nD τ).loc main_arg3) := KHost.pre_v32 (W0 m ρ c)
theorem w3_v33 : (W3 m ρ c (Proc.devRef .tc main_v33) : S128x64.Idx → EReal) = m ((c : Thread nD τ).loc main_arg5) := KHost.pre_v33 (W0 m ρ c)

/-! ## Leaving the first region -/

theorem w4_v34 : (W4 m ρ c (Proc.devRef .tc main_v34) : S50000x128.Idx → EReal)
    = matProd (M := 50000) (K := 128) (N := 128) (m ((c : Thread nD τ).loc main_arg0)) (m ((c : Thread nD τ).loc main_arg3)) := by
  refine ((W4_arr m ρ c 2).trans (Region0.final (V3 m ρ) c)).trans ?_
  show matProd (M := 50000) (K := 128) (N := 128) (W3 m ρ c (Proc.devRef .tc main_arg0)) (W3 m ρ c (Proc.devRef .tc main_v32)) = _
  rw [w3_arg0, w3_v32]

theorem w4_v5 : W4 m ρ c (Proc.devRef .tc main_v5) = W3 m ρ c (Proc.devRef .tc main_v5) := W4_of_ne m ρ c main_v5 (by decide)
theorem w4_v6 : W4 m ρ c (Proc.devRef .tc main_v6) = W3 m ρ c (Proc.devRef .tc main_v6) := W4_of_ne m ρ c main_v6 (by decide)
theorem w4_v31 : W4 m ρ c (Proc.devRef .tc main_v31) = W3 m ρ c (Proc.devRef .tc main_v31) := W4_of_ne m ρ c main_v31 (by decide)
theorem w4_v33 : W4 m ρ c (Proc.devRef .tc main_v33) = W3 m ρ c (Proc.devRef .tc main_v33) := W4_of_ne m ρ c main_v33 (by decide)
theorem w4_arg4 : W4 m ρ c (Proc.devRef .tc main_arg4) = W3 m ρ c (Proc.devRef .tc main_arg4) := W4_of_ne m ρ c main_arg4 (by decide)
theorem w4_arg6 : W4 m ρ c (Proc.devRef .tc main_arg6) = W3 m ρ c (Proc.devRef .tc main_arg6) := W4_of_ne m ρ c main_arg6 (by decide)

/-! ## Entering the second region -/

theorem w5_v5 : W5 m ρ c (Proc.devRef .tc main_v5) = W3 m ρ c (Proc.devRef .tc main_v5) := (KHost.mid1_v5 (W4 m ρ c)).trans (w4_v5 m ρ c)
theorem w5_v6 : W5 m ρ c (Proc.devRef .tc main_v6) = W3 m ρ c (Proc.devRef .tc main_v6) := (KHost.mid1_v6 (W4 m ρ c)).trans (w4_v6 m ρ c)
theorem w5_v31 : W5 m ρ c (Proc.devRef .tc main_v31) = W3 m ρ c (Proc.devRef .tc main_v31) := (KHost.mid1_v31 (W4 m ρ c)).trans (w4_v31 m ρ c)
theorem w5_arg6 : W5 m ρ c (Proc.devRef .tc main_arg6) = m ((c : Thread nD τ).loc main_arg6) :=
  (KHost.mid1_arg6 (W4 m ρ c)).trans ((w4_arg6 m ρ c).trans (w3_arg6 m ρ c))
theorem w5_v33 : (W5 m ρ c (Proc.devRef .tc main_v33) : S128x64.Idx → EReal) = m ((c : Thread nD τ).loc main_arg5) :=
  (KHost.mid1_v33 (W4 m ρ c)).trans ((w4_v33 m ρ c).trans (w3_v33 m ρ c))
theorem w5_v48 (k : Fin 128) : (W5 m ρ c (Proc.devRef .tc main_v48) : S1x128.Idx → EReal) (ix2 (0 : Fin 1) k)
    = (m ((c : Thread nD τ).loc main_arg4) : S128.Idx → EReal) (ix1 k) := by
  refine (KHost.mid1_v48 (W4 m ρ c) k).trans ?_
  rw [w4_arg4, w3_arg4]

/-! ## Leaving the second region -/

theorem w6_v49 : (W6 m ρ c (Proc.devRef .tc main_v49) : S50000x64.Idx → EReal)
    = Region1.G (W5 m ρ c (Proc.devRef .tc main_v47)) (W5 m ρ c (Proc.devRef .tc main_v48)) (W5 m ρ c (Proc.devRef .tc main_v33)) :=
  (W6_arr m ρ c 3).trans (Region1.final (V5 m ρ) c)

theorem w6_v5 : W6 m ρ c (Proc.devRef .tc main_v5) = W3 m ρ c (Proc.devRef .tc main_v5) := (W6_of_ne m ρ c main_v5 (by decide)).trans (w5_v5 m ρ c)
theorem w6_v6 : W6 m ρ c (Proc.devRef .tc main_v6) = W3 m ρ c (Proc.devRef .tc main_v6) := (W6_of_ne m ρ c main_v6 (by decide)).trans (w5_v6 m ρ c)
theorem w6_v31 : W6 m ρ c (Proc.devRef .tc main_v31) = W3 m ρ c (Proc.devRef .tc main_v31) := (W6_of_ne m ρ c main_v31 (by decide)).trans (w5_v31 m ρ c)
theorem w6_arg6 : W6 m ρ c (Proc.devRef .tc main_arg6) = m ((c : Thread nD τ).loc main_arg6) := (W6_of_ne m ρ c main_arg6 (by decide)).trans (w5_arg6 m ρ c)

/-! ## Entering and leaving the third region -/

theorem w7_v63 (q : Fin 64) : (W7 m ρ c (Proc.devRef .tc main_v63) : S1x64.Idx → EReal) (ix2 (0 : Fin 1) q)
    = (m ((c : Thread nD τ).loc main_arg6) : S64.Idx → EReal) (ix1 q) := by
  refine (KHost.mid2_v63 (W6 m ρ c) q).trans ?_
  rw [w6_arg6]

theorem w8_v64 : (W8 m ρ c (Proc.devRef .tc main_v64) : S50000x64.Idx → EReal)
    = Region2.G (W7 m ρ c (Proc.devRef .tc main_v62)) (W7 m ρ c (Proc.devRef .tc main_v63)) :=
  (W8_arr m ρ c 2).trans (Region2.final (V7 m ρ) c)

end Cert.KernelIdeal.KValue

end
-- ==== Proof.RefRead.lean ====
/-
  The reference's segments read at a buffer, at the ideal values.

  Each statement folds one segment of the reference's host program over an arbitrary valuation `X` of the buffers and
  reads one buffer afterwards. The two dense products are the matrix product `matProd` of their operands. The bias and
  `elu` segment leaves, at entry (r, k), `eluR` of the aggregate's entry plus the bias's entry k; the output segment,
  at (r, q), `spR` of the aggregate's entry plus the bias's entry q. The second layer's edge weights are the first
  layer's whenever they start from the same flattened index rows and edge values. A buffer a segment does not write
  keeps its contents (the `keep` lemmas).
-/
import proofs.«158829_j43301860278532_2_alg».proof.Proof.RefRun
import proofs.«158829_j43301860278532_2_alg».proof.Proof.Spec
import Idealize.ShloMosaic.Lib.StableHlo.Run
import Idealize.ShloMosaic.Lib.ValueIdx
import Idealize.ShloMosaic.Lib.Pipeline.Value
import Idealize.ShloMosaic.Lib.KernelVsHost

noncomputable section

namespace Cert.ReferenceIdeal.RefRead

open Cert.ReferenceIdeal Cert.ReferenceIdeal.Gen Cert.ReferenceIdeal.RefRun Cert.GcnSpec Idealize.ShloMosaic Idealize.ShloMosaic.StableHlo
  Idealize.ShloMosaic.ValueIdx Idealize.ShloMosaic.TcCoe

/-- After the one-pass reading of a fold, what is left under an operand list: each operation's result at its own result
    buffer is its function's value, at any other reference what was there. -/
macro "ar_finish" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

/-- The one-pass reading of a fold, at a hypothesis. -/
macro "read_at " h:ident : tactic =>
  `(tactic| simp (disch := decide) only [after_cons, after_nil,
      nullary_result', unary_result', binary_result', ternary_result', quaternary_result', reshape_result',
      nullary_result_ne', unary_result_ne', binary_result_ne', ternary_result_ne', quaternary_result_ne', reshape_result_ne'] at $h:ident)

/-! ## The dense products -/

/-- The first layer's dense product is the matrix product of the features and the weights. -/
theorem dot1_eq (X : Valuation τ sig (Elt Ideal)) :
    (after (opsDot1 (F := Ideal)) X (Proc.devRef .tc main_v32) : S50000x128.Idx → EReal)
      = matProd (M := 50000) (K := 128) (N := 128) (X main_arg0) (X main_arg3) := by
  after_results_simp
  exact dot_eq_matProd dot_S50000x128_S128x128_S50000x128_1_0_0_1_n_n rfl rfl (fun _ _ => rfl) (fun _ _ => rfl)
    (fun _ _ => rfl) (fun _ _ => rfl) _ _

/-- The second layer's dense product is the matrix product of the hidden features and the weights. -/
theorem dot2_eq (X : Valuation τ sig (Elt Ideal)) :
    (after (opsDot2 (F := Ideal)) X main_v78 : S50000x64.Idx → EReal)
      = matProd (M := 50000) (K := 128) (N := 64) (X main_v49) (X main_arg5) := by
  after_results_simp
  exact dot_eq_matProd dot_S50000x128_S128x64_S50000x64_1_0_0_1_n_n rfl rfl (fun _ _ => rfl) (fun _ _ => rfl)
    (fun _ _ => rfl) (fun _ _ => rfl) _ _

/-! ## What a segment leaves alone

A buffer no operation of the segment writes keeps its contents. -/

theorem norm1_keep_arg0 (X : Valuation τ sig (Elt Ideal)) :
    after (opsNorm1 (F := Ideal)) X (Proc.devRef .tc main_arg0) = X (Proc.devRef .tc main_arg0) := by after_results_simp
theorem norm1_keep_arg2 (X : Valuation τ sig (Elt Ideal)) :
    after (opsNorm1 (F := Ideal)) X (Proc.devRef .tc main_arg2) = X (Proc.devRef .tc main_arg2) := by after_results_simp
theorem norm1_keep_arg3 (X : Valuation τ sig (Elt Ideal)) :
    after (opsNorm1 (F := Ideal)) X (Proc.devRef .tc main_arg3) = X (Proc.devRef .tc main_arg3) := by after_results_simp
theorem norm1_keep_arg4 (X : Valuation τ sig (Elt Ideal)) :
    after (opsNorm1 (F := Ideal)) X (Proc.devRef .tc main_arg4) = X (Proc.devRef .tc main_arg4) := by after_results_simp
theorem norm1_keep_arg5 (X : Valuation τ sig (Elt Ideal)) :
    after (opsNorm1 (F := Ideal)) X (Proc.devRef .tc main_arg5) = X (Proc.devRef .tc main_arg5) := by after_results_simp
theorem norm1_keep_arg6 (X : Valuation τ sig (Elt Ideal)) :
    after (opsNorm1 (F := Ideal)) X (Proc.devRef .tc main_arg6) = X (Proc.devRef .tc main_arg6) := by after_results_simp

theorem dot1_keep_v1 (X : Valuation τ sig (Elt Ideal)) :
    after (opsDot1 (F := Ideal)) X (Proc.devRef .tc main_v1) = X (Proc.devRef .tc main_v1) := by after_results_simp
theorem dot1_keep_v3 (X : Valuation τ sig (Elt Ideal)) :
    after (opsDot1 (F := Ideal)) X (Proc.devRef .tc main_v3) = X (Proc.devRef .tc main_v3) := by after_results_simp
theorem dot1_keep_v5 (X : Valuation τ sig (Elt Ideal)) :
    after (opsDot1 (F := Ideal)) X (Proc.devRef .tc main_v5) = X (Proc.devRef .tc main_v5) := by after_results_simp
theorem dot1_keep_v6 (X : Valuation τ sig (Elt Ideal)) :
    after (opsDot1 (F := Ideal)) X (Proc.devRef .tc main_v6) = X (Proc.devRef .tc main_v6) := by after_results_simp
theorem dot1_keep_v31 (X : Valuation τ sig (Elt Ideal)) :
    after (opsDot1 (F := Ideal)) X (Proc.devRef .tc main_v31) = X (Proc.devRef .tc main_v31) := by after_results_simp
theorem dot1_keep_arg2 (X : Valuation τ sig (Elt Ideal)) :
    after (opsDot1 (F := Ideal)) X (Proc.devRef .tc main_arg2) = X (Proc.devRef .tc main_arg2) := by after_results_simp
theorem dot1_keep_arg4 (X : Valuation τ sig (Elt Ideal)) :
    after (opsDot1 (F := Ideal)) X (Proc.devRef .tc main_arg4) = X (Proc.devRef .tc main_arg4) := by after_results_simp
theorem dot1_keep_arg5 (X : Valuation τ sig (Elt Ideal)) :
    after (opsDot1 (F := Ideal)) X (Proc.devRef .tc main_arg5) = X (Proc.devRef .tc main_arg5) := by after_results_simp
theorem dot1_keep_arg6 (X : Valuation τ sig (Elt Ideal)) :
    after (opsDot1 (F := Ideal)) X (Proc.devRef .tc main_arg6) = X (Proc.devRef .tc main_arg6) := by after_results_simp

theorem agg1_keep_v1 (X : Valuation τ sig (Elt Ideal)) :
    after (opsAgg1 (F := Ideal)) X (Proc.devRef .tc main_v1) = X (Proc.devRef .tc main_v1) := by after_results_simp
theorem agg1_keep_v3 (X : Valuation τ sig (Elt Ideal)) :
    after (opsAgg1 (F := Ideal)) X (Proc.devRef .tc main_v3) = X (Proc.devRef .tc main_v3) := by after_results_simp
theorem agg1_keep_arg2 (X : Valuation τ sig (Elt Ideal)) :
    after (opsAgg1 (F := Ideal)) X (Proc.devRef .tc main_arg2) = X (Proc.devRef .tc main_arg2) := by after_results_simp
theorem agg1_keep_arg4 (X : Valuation τ sig (Elt Ideal)) :
    after (opsAgg1 (F := Ideal)) X (Proc.devRef .tc main_arg4) = X (Proc.devRef .tc main_arg4) := by after_results_simp
theorem agg1_keep_arg5 (X : Valuation τ sig (Elt Ideal)) :
    after (opsAgg1 (F := Ideal)) X (Proc.devRef .tc main_arg5) = X (Proc.devRef .tc main_arg5) := by after_results_simp
theorem agg1_keep_arg6 (X : Valuation τ sig (Elt Ideal)) :
    after (opsAgg1 (F := Ideal)) X (Proc.devRef .tc main_arg6) = X (Proc.devRef .tc main_arg6) := by after_results_simp

theorem elu_keep_v1 (X : Valuation τ sig (Elt Ideal)) :
    after (opsElu (F := Ideal)) X (Proc.devRef .tc main_v1) = X (Proc.devRef .tc main_v1) := by after_results_simp
theorem elu_keep_v3 (X : Valuation τ sig (Elt Ideal)) :
    after (opsElu (F := Ideal)) X (Proc.devRef .tc main_v3) = X (Proc.devRef .tc main_v3) := by after_results_simp
theorem elu_keep_arg2 (X : Valuation τ sig (Elt Ideal)) :
    after (opsElu (F := Ideal)) X (Proc.devRef .tc main_arg2) = X (Proc.devRef .tc main_arg2) := by after_results_simp
theorem elu_keep_arg5 (X : Valuation τ sig (Elt Ideal)) :
    after (opsElu (F := Ideal)) X (Proc.devRef .tc main_arg5) = X (Proc.devRef .tc main_arg5) := by after_results_simp
theorem elu_keep_arg6 (X : Valuation τ sig (Elt Ideal)) :
    after (opsElu (F := Ideal)) X (Proc.devRef .tc main_arg6) = X (Proc.devRef .tc main_arg6) := by after_results_simp

theorem norm2_keep_v49 (X : Valuation τ sig (Elt Ideal)) :
    after (opsNorm2 (F := Ideal)) X (Proc.devRef .tc main_v49) = X (Proc.devRef .tc main_v49) := by after_results_simp
theorem norm2_keep_arg5 (X : Valuation τ sig (Elt Ideal)) :
    after (opsNorm2 (F := Ideal)) X (Proc.devRef .tc main_arg5) = X (Proc.devRef .tc main_arg5) := by after_results_simp
theorem norm2_keep_arg6 (X : Valuation τ sig (Elt Ideal)) :
    after (opsNorm2 (F := Ideal)) X (Proc.devRef .tc main_arg6) = X (Proc.devRef .tc main_arg6) := by after_results_simp

theorem dot2_keep_v51 (X : Valuation τ sig (Elt Ideal)) :
    after (opsDot2 (F := Ideal)) X (Proc.devRef .tc main_v51) = X (Proc.devRef .tc main_v51) := by after_results_simp
theorem dot2_keep_v52 (X : Valuation τ sig (Elt Ideal)) :
    after (opsDot2 (F := Ideal)) X (Proc.devRef .tc main_v52) = X (Proc.devRef .tc main_v52) := by after_results_simp
theorem dot2_keep_v77 (X : Valuation τ sig (Elt Ideal)) :
    after (opsDot2 (F := Ideal)) X (Proc.devRef .tc main_v77) = X (Proc.devRef .tc main_v77) := by after_results_simp
theorem dot2_keep_arg6 (X : Valuation τ sig (Elt Ideal)) :
    after (opsDot2 (F := Ideal)) X (Proc.devRef .tc main_arg6) = X (Proc.devRef .tc main_arg6) := by after_results_simp

theorem agg2_keep_arg6 (X : Valuation τ sig (Elt Ideal)) :
    after (opsAgg2 (F := Ideal)) X (Proc.devRef .tc main_arg6) = X (Proc.devRef .tc main_arg6) := by after_results_simp

/-! ## The bias and the activations, at an entry -/

/-- A vector laid along every row of a matrix — broadcast to one row, the row broadcast down the rows — read at (r, k) is
    the vector's entry k. -/
private theorem bias128_apply (x : S128.Idx → EReal) (r : Fin 50000) (k : Fin 128) :
    broadcastInDim S50000x128 ![0, 1] bcast_S1x128_S50000x128_0_1 (broadcastInDim S1x128 ![1] bcast_S128_S1x128_1 x) (ix2 r k)
      = x (ix1 k) := by
  refine (broadcastInDim_oneRow_apply bcast_S1x128_S50000x128_0_1 _ r k).trans ?_
  refine broadcastInDim_apply ![1] bcast_S128_S1x128_1 x (ix2 (0 : Fin 1) k) (ix1 k) ?_
  intro a
  match a with
  | ⟨0, _⟩ => rfl

private theorem bias64_apply (x : S64.Idx → EReal) (r : Fin 50000) (q : Fin 64) :
    broadcastInDim S50000x64 ![0, 1] bcast_S1x64_S50000x64_0_1 (broadcastInDim S1x64 ![1] bcast_S64_S1x64_1 x) (ix2 r q)
      = x (ix1 q) := by
  refine (broadcastInDim_oneRow_apply bcast_S1x64_S50000x64_0_1 _ r q).trans ?_
  refine broadcastInDim_apply ![1] bcast_S64_S1x64_1 x (ix2 (0 : Fin 1) q) (ix1 q) ?_
  intro a
  match a with
  | ⟨0, _⟩ => rfl

set_option maxRecDepth 4096 in
/-- The bias and `elu` segment at entry (r, k): `eluR` of the aggregate's entry plus the bias's entry k. -/
theorem elu_apply (X : Valuation τ sig (Elt Ideal)) (r : Fin 50000) (k : Fin 128) :
    (after (opsElu (F := Ideal)) X main_v49 : S50000x128.Idx → EReal) (ix2 r k)
      = eluR (@HAdd.hAdd EReal EReal EReal instHAdd (X main_v45 (ix2 r k)) (X main_arg4 (ix1 k))) := by
  have key : (after (opsElu (F := Ideal)) X main_v49 : S50000x128.Idx → EReal) (ix2 r k)
      = eluR (@HAdd.hAdd EReal EReal EReal instHAdd (X main_v45 (ix2 r k))
          (broadcastInDim S50000x128 ![0, 1] bcast_S1x128_S50000x128_0_1
              (broadcastInDim S1x128 ![1] bcast_S128_S1x128_1 (X main_arg4 : S128.Idx → EReal)) (ix2 r k))) := by
    after_results_simp
    rfl
  rw [key, bias128_apply]

set_option maxRecDepth 4096 in
/-- The output segment at entry (r, q): `spR` of the aggregate's entry plus the bias's entry q. -/
theorem out_apply (X : Valuation τ sig (Elt Ideal)) (r : Fin 50000) (q : Fin 64) :
    (after (opsOut (F := Ideal)) X main_v97 : S50000x64.Idx → EReal) (ix2 r q)
      = spR (@HAdd.hAdd EReal EReal EReal instHAdd (X main_v91 (ix2 r q)) (X main_arg6 (ix1 q))) := by
  have key : (after (opsOut (F := Ideal)) X main_v97 : S50000x64.Idx → EReal) (ix2 r q)
      = spR (@HAdd.hAdd EReal EReal EReal instHAdd (X main_v91 (ix2 r q))
          (broadcastInDim S50000x64 ![0, 1] bcast_S1x64_S50000x64_0_1
              (broadcastInDim S1x64 ![1] bcast_S64_S1x64_1 (X main_arg6 : S64.Idx → EReal)) (ix2 r q))) := by
    after_results_simp
    rfl
  rw [key, bias64_apply]

/-! ## The second layer's edge weights are the first layer's -/

set_option maxRecDepth 8192 in
set_option maxHeartbeats 1000000 in
/-- The second layer computes its edge weights again from the flattened index rows and the edge values; from the same
    rows and values they are the first layer's: the extended index vectors and the normalised weights agree. -/
theorem norm2_eq_norm1 (X Y : Valuation τ sig (Elt Ideal))
    (h1 : X main_v1 = after opsNorm1 Y main_v1) (h3 : X main_v3 = after opsNorm1 Y main_v3) (h2 : X main_arg2 = Y main_arg2) :
    after (opsNorm2 (F := Ideal)) X main_v51 = after opsNorm1 Y main_v5
      ∧ after opsNorm2 X main_v52 = after opsNorm1 Y main_v6
      ∧ after opsNorm2 X main_v77 = after opsNorm1 Y main_v31 := by
  read_at h1
  read_at h3
  refine ⟨?_, ?_, ?_⟩
  · after_results_simp
    ar_finish
    rw [h1]
  · after_results_simp
    ar_finish
    rw [h3]
  · after_results_simp
    ar_finish
    rw [h1, h3, h2]

end Cert.ReferenceIdeal.RefRead

end
-- ==== Proof.HostAgree.lean ====
/-
  The kernel program's host stretches against the reference's segments.

  Between its kernels the kernel program runs the same host operations as the reference: the edge weights (the index rows
  extended by the identity edges, the degrees, their guarded reciprocal square roots, the two gathers and the product),
  and after each dense product the aggregation (the product's rows gathered at the wrapped source indices, scaled by the
  edge weights and scatter-added at the target indices into zeros). Each statement here reads the two programs' folds
  at the result buffer: from valuations that agree on the operands, the kernel program's stretch and the reference's
  segment leave the same contents there. Both sides are the same composite of the same operations over the operands;
  the two programs' shape names and dimension records are the same literals.
-/
import proofs.«158829_j43301860278532_2_alg».proof.Proof.Gen.KernelIdeal.Launch
import proofs.«158829_j43301860278532_2_alg».proof.Proof.RefRun
import Idealize.ShloMosaic.Lib.StableHlo.Run
import Idealize.ShloMosaic.PureOps.Ideal

noncomputable section

namespace Cert.HostAgree

open Idealize.ShloMosaic Idealize.ShloMosaic.TcCoe Idealize.ShloMosaic.StableHlo

/-- After the one-pass reading of a fold, what is left under an operand list: each operation's result at its own result
    buffer is its function's value, at any other reference what was there. -/
macro "ar_finish" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

/-! ## The aggregations -/

set_option maxRecDepth 4096 in
/-- The first layer's aggregation: from the same dense product, index vectors and edge weights, the two programs leave
    the same sums. -/
theorem agg1_agree (VK : Valuation KernelIdeal.τ KernelIdeal.sig (Elt Ideal)) (VR : Valuation ReferenceIdeal.τ ReferenceIdeal.sig (Elt Ideal))
    (xw : FVec Ideal KernelIdeal.S50000x128 .f32) (s d : IVec KernelIdeal.S850000 32) (n : FVec Ideal KernelIdeal.S850000 .f32)
    (hk1 : VK KernelIdeal.main_v34 = xw) (hk2 : VK KernelIdeal.main_v5 = s) (hk3 : VK KernelIdeal.main_v6 = d) (hk4 : VK KernelIdeal.main_v31 = n)
    (hr1 : VR ReferenceIdeal.main_v32 = xw) (hr2 : VR ReferenceIdeal.main_v5 = s) (hr3 : VR ReferenceIdeal.main_v6 = d) (hr4 : VR ReferenceIdeal.main_v31 = n) :
    (after (KernelIdeal.Gen.hostOps1 (F := Ideal)) VK KernelIdeal.main_v47 : FVec Ideal KernelIdeal.S50000x128 .f32)
      = after (ReferenceIdeal.RefRun.opsAgg1 (F := Ideal)) VR ReferenceIdeal.main_v45 := by
  after_results_simp
  rw [hk1, hk2, hk3, hk4, hr1, hr2, hr3, hr4]
  rfl

set_option maxRecDepth 4096 in
/-- The second layer's aggregation, likewise. -/
theorem agg2_agree (VK : Valuation KernelIdeal.τ KernelIdeal.sig (Elt Ideal)) (VR : Valuation ReferenceIdeal.τ ReferenceIdeal.sig (Elt Ideal))
    (xw : FVec Ideal KernelIdeal.S50000x64 .f32) (s d : IVec KernelIdeal.S850000 32) (n : FVec Ideal KernelIdeal.S850000 .f32)
    (hk1 : VK KernelIdeal.main_v49 = xw) (hk2 : VK KernelIdeal.main_v5 = s) (hk3 : VK KernelIdeal.main_v6 = d) (hk4 : VK KernelIdeal.main_v31 = n)
    (hr1 : VR ReferenceIdeal.main_v78 = xw) (hr2 : VR ReferenceIdeal.main_v51 = s) (hr3 : VR ReferenceIdeal.main_v52 = d) (hr4 : VR ReferenceIdeal.main_v77 = n) :
    (after (KernelIdeal.Gen.hostOps2 (F := Ideal)) VK KernelIdeal.main_v62 : FVec Ideal KernelIdeal.S50000x64 .f32)
      = after (ReferenceIdeal.RefRun.opsAgg2 (F := Ideal)) VR ReferenceIdeal.main_v91 := by
  after_results_simp
  rw [hk1, hk2, hk3, hk4, hr1, hr2, hr3, hr4]
  rfl

/-! ## The edge weights -/

set_option maxRecDepth 8192 in
set_option maxHeartbeats 1000000 in
/-- The edge weights: from the same edge table and edge values the kernel program's three opening stretches and the
    reference's first segment leave the same extended index vectors and the same normalised weights. -/
theorem norm_agree (VK : Valuation KernelIdeal.τ KernelIdeal.sig (Elt Ideal)) (VR : Valuation ReferenceIdeal.τ ReferenceIdeal.sig (Elt Ideal))
    (ei : IVec KernelIdeal.S2x800000 32) (ew : FVec Ideal KernelIdeal.S800000 .f32)
    (hk1 : VK (Proc.devRef .tc KernelIdeal.main_arg1) = ei) (hk2 : VK KernelIdeal.main_arg2 = ew)
    (hr1 : VR ReferenceIdeal.main_arg1 = ei) (hr2 : VR ReferenceIdeal.main_arg2 = ew) :
    (after KernelIdeal.Gen.hostOps0_2 (after KernelIdeal.Gen.hostOps0_1 (after (KernelIdeal.Gen.hostOps0 (F := Ideal)) VK)) KernelIdeal.main_v5 : IVec KernelIdeal.S850000 32)
        = after (ReferenceIdeal.RefRun.opsNorm1 (F := Ideal)) VR ReferenceIdeal.main_v5
      ∧ (after KernelIdeal.Gen.hostOps0_2 (after KernelIdeal.Gen.hostOps0_1 (after (KernelIdeal.Gen.hostOps0 (F := Ideal)) VK)) KernelIdeal.main_v6 : IVec KernelIdeal.S850000 32)
        = after (ReferenceIdeal.RefRun.opsNorm1 (F := Ideal)) VR ReferenceIdeal.main_v6
      ∧ (after KernelIdeal.Gen.hostOps0_2 (after KernelIdeal.Gen.hostOps0_1 (after (KernelIdeal.Gen.hostOps0 (F := Ideal)) VK)) KernelIdeal.main_v31 : FVec Ideal KernelIdeal.S850000 .f32)
        = after (ReferenceIdeal.RefRun.opsNorm1 (F := Ideal)) VR ReferenceIdeal.main_v31 := by
  refine ⟨?_, ?_, ?_⟩
  · after_results_simp
    ar_finish
    rw [hk1, hr1]
    rfl
  · after_results_simp
    ar_finish
    rw [hk1, hr1]
    rfl
  · after_results_simp
    ar_finish
    rw [hk1, hk2, hr1, hr2]
    rfl

end Cert.HostAgree

end
-- ==== Proof.Bridge.lean ====
/-
  The two programs compute one function. From memories that agree on the seven arguments, the reference's result buffer
  after its run and the kernel program's result buffer at its last boundary hold the same array of extended reals.

  The reference is walked in eight consecutive segments beside the kernel program's boundaries. Both compute the edge
  lists with self loops, the weighted in-degree and the edge normalisation by the same host operations on the same
  arguments (the reference twice, to the same values). The first products agree because a matrix product accumulated
  into zero block by block over the rows is the whole product. Both aggregate that product along the edges by the same
  gather, scaling and scatter-add. The second products agree because, entry by entry, the kernel's elu of the aggregate
  plus the bias is the host's (`elu_eq`), and again the row-tiled product is the whole product. Both aggregate it the
  same way, and entry by entry the kernel's softplus plus the constant of the second aggregate plus the bias is the
  host's (`sp_eq`).
-/
import proofs.«158829_j43301860278532_2_alg».proof.Proof.KValue
import proofs.«158829_j43301860278532_2_alg».proof.Proof.RefRun
import proofs.«158829_j43301860278532_2_alg».proof.Proof.RefRead
import proofs.«158829_j43301860278532_2_alg».proof.Proof.HostAgree

set_option maxRecDepth 16384

noncomputable section

namespace Cert.Bridge

open Idealize.ShloMosaic Idealize.ShloMosaic.TcCoe Idealize.ShloMosaic.ValueIdx Idealize.SL.Sem Idealize.ShloMosaic.StableHlo
open Cert.GcnSpec
open Cert.ReferenceIdeal.RefRun Cert.ReferenceIdeal.RefRead Cert.KernelIdeal.KValue

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- The two launch memories agree on the seven arguments (on device `c`). -/
def Agree : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)

-- the reference's launch contents on device `c`, and its buffers after each of its first seven segments
local notation "R0" => (launchContents m' c : Valuation ReferenceIdeal.τ ReferenceIdeal.sig (Elt Ideal))
local notation "R1" => after (opsNorm1 (F := Ideal)) R0
local notation "R2" => after (opsDot1 (F := Ideal)) R1
local notation "R3" => after (opsAgg1 (F := Ideal)) R2
local notation "R4" => after (opsElu (F := Ideal)) R3
local notation "R5" => after (opsNorm2 (F := Ideal)) R4
local notation "R6" => after (opsDot2 (F := Ideal)) R5
local notation "R7" => after (opsAgg2 (F := Ideal)) R6

variable (hag : Agree m m' c)
include hag

/-! ## The arguments, where each is read -/

theorem r1_arg0 : (R1 (Proc.devRef .tc ReferenceIdeal.main_arg0) : KernelIdeal.S50000x128.Idx → EReal) = m ((c.tc : Thread KernelIdeal.nD KernelIdeal.τ).loc KernelIdeal.main_arg0) :=
  (norm1_keep_arg0 R0).trans hag.1
theorem r1_arg3 : (R1 (Proc.devRef .tc ReferenceIdeal.main_arg3) : KernelIdeal.S128x128.Idx → EReal) = m ((c.tc : Thread KernelIdeal.nD KernelIdeal.τ).loc KernelIdeal.main_arg3) :=
  (norm1_keep_arg3 R0).trans hag.2.2.2.1
theorem r3_arg4 : (R3 (Proc.devRef .tc ReferenceIdeal.main_arg4) : KernelIdeal.S128.Idx → EReal) = m ((c.tc : Thread KernelIdeal.nD KernelIdeal.τ).loc KernelIdeal.main_arg4) :=
  (agg1_keep_arg4 R2).trans ((dot1_keep_arg4 R1).trans ((norm1_keep_arg4 R0).trans hag.2.2.2.2.1))
theorem r5_arg5 : (R5 (Proc.devRef .tc ReferenceIdeal.main_arg5) : KernelIdeal.S128x64.Idx → EReal) = m ((c.tc : Thread KernelIdeal.nD KernelIdeal.τ).loc KernelIdeal.main_arg5) :=
  (norm2_keep_arg5 R4).trans ((elu_keep_arg5 R3).trans ((agg1_keep_arg5 R2).trans
    ((dot1_keep_arg5 R1).trans ((norm1_keep_arg5 R0).trans hag.2.2.2.2.2.1))))
theorem r7_arg6 : (R7 (Proc.devRef .tc ReferenceIdeal.main_arg6) : KernelIdeal.S64.Idx → EReal) = m ((c.tc : Thread KernelIdeal.nD KernelIdeal.τ).loc KernelIdeal.main_arg6) :=
  (agg2_keep_arg6 R6).trans ((dot2_keep_arg6 R5).trans ((norm2_keep_arg6 R4).trans ((elu_keep_arg6 R3).trans
    ((agg1_keep_arg6 R2).trans ((dot1_keep_arg6 R1).trans ((norm1_keep_arg6 R0).trans hag.2.2.2.2.2.2))))))

/-! ## The edge lists and the normalisation -/

theorem norm1 :
    (KernelIdeal.Gen.W3 m ρ c (Proc.devRef .tc KernelIdeal.main_v5) : IVec KernelIdeal.S850000 32) = R1 (Proc.devRef .tc ReferenceIdeal.main_v5)
    ∧ (KernelIdeal.Gen.W3 m ρ c (Proc.devRef .tc KernelIdeal.main_v6) : IVec KernelIdeal.S850000 32) = R1 (Proc.devRef .tc ReferenceIdeal.main_v6)
    ∧ (KernelIdeal.Gen.W3 m ρ c (Proc.devRef .tc KernelIdeal.main_v31) : FVec Ideal KernelIdeal.S850000 .f32) = R1 (Proc.devRef .tc ReferenceIdeal.main_v31) :=
  HostAgree.norm_agree (KernelIdeal.Gen.W0 m ρ c) R0
    (m ((c.tc : Thread KernelIdeal.nD KernelIdeal.τ).loc KernelIdeal.main_arg1)) (m ((c.tc : Thread KernelIdeal.nD KernelIdeal.τ).loc KernelIdeal.main_arg2))
    rfl rfl hag.2.1 hag.2.2.1

/-- The second layer's edge lists and normalisation are the first layer's. -/
theorem norm2 :
    R5 (Proc.devRef .tc ReferenceIdeal.main_v51) = R1 (Proc.devRef .tc ReferenceIdeal.main_v5)
    ∧ R5 (Proc.devRef .tc ReferenceIdeal.main_v52) = R1 (Proc.devRef .tc ReferenceIdeal.main_v6)
    ∧ R5 (Proc.devRef .tc ReferenceIdeal.main_v77) = R1 (Proc.devRef .tc ReferenceIdeal.main_v31) :=
  norm2_eq_norm1 R4 R0
    ((elu_keep_v1 R3).trans ((agg1_keep_v1 R2).trans (dot1_keep_v1 R1)))
    ((elu_keep_v3 R3).trans ((agg1_keep_v3 R2).trans (dot1_keep_v3 R1)))
    ((elu_keep_arg2 R3).trans ((agg1_keep_arg2 R2).trans ((dot1_keep_arg2 R1).trans (norm1_keep_arg2 R0))))

/-! ## The first layer -/

theorem xw1 : (R2 (Proc.devRef .tc ReferenceIdeal.main_v32) : KernelIdeal.S50000x128.Idx → EReal)
    = KernelIdeal.Gen.W4 m ρ c (Proc.devRef .tc KernelIdeal.main_v34) := by
  refine (dot1_eq R1).trans ?_
  rw [r1_arg0 m m' c hag, r1_arg3 m m' c hag]
  exact (w4_v34 m ρ c).symm

theorem agg1 : (R3 (Proc.devRef .tc ReferenceIdeal.main_v45) : KernelIdeal.S50000x128.Idx → EReal)
    = KernelIdeal.Gen.W5 m ρ c (Proc.devRef .tc KernelIdeal.main_v47) := by
  obtain ⟨n5, n6, n31⟩ := norm1 m ρ m' c hag
  exact (HostAgree.agg1_agree (KernelIdeal.Gen.W4 m ρ c) R2
    (KernelIdeal.Gen.W4 m ρ c (Proc.devRef .tc KernelIdeal.main_v34))
    (KernelIdeal.Gen.W3 m ρ c (Proc.devRef .tc KernelIdeal.main_v5)) (KernelIdeal.Gen.W3 m ρ c (Proc.devRef .tc KernelIdeal.main_v6))
    (KernelIdeal.Gen.W3 m ρ c (Proc.devRef .tc KernelIdeal.main_v31))
    rfl (w4_v5 m ρ c) (w4_v6 m ρ c) (w4_v31 m ρ c)
    (xw1 m ρ m' c hag) ((dot1_keep_v5 R1).trans n5.symm) ((dot1_keep_v6 R1).trans n6.symm)
    ((dot1_keep_v31 R1).trans n31.symm)).symm

/-- The activated array: entry by entry the host's elu of the aggregate plus the bias is the kernel's. -/
theorem act1 : (R4 (Proc.devRef .tc ReferenceIdeal.main_v49) : KernelIdeal.S50000x128.Idx → EReal)
    = KernelIdeal.Region1.act (M := 50000) (KernelIdeal.Gen.W5 m ρ c (Proc.devRef .tc KernelIdeal.main_v47))
        (KernelIdeal.Gen.W5 m ρ c (Proc.devRef .tc KernelIdeal.main_v48)) := by
  funext j
  obtain ⟨r, k, rfl⟩ : ∃ (r : Fin 50000) (k : Fin 128), j = ix2 r k := ⟨j 0, j 1, eq_ix2 j⟩
  refine (elu_apply R3 r k).trans ?_
  rw [agg1 m ρ m' c hag, r3_arg4 m m' c hag, ← w5_v48 m ρ c k, ← elu_eq]
  rfl

/-! ## The second layer -/

theorem xw2 : (R6 (Proc.devRef .tc ReferenceIdeal.main_v78) : KernelIdeal.S50000x64.Idx → EReal)
    = KernelIdeal.Gen.W6 m ρ c (Proc.devRef .tc KernelIdeal.main_v49) := by
  refine (dot2_eq R5).trans ?_
  rw [norm2_keep_v49 R4, act1 m ρ m' c hag, r5_arg5 m m' c hag, w6_v49 m ρ c, w5_v33 m ρ c]
  rfl

theorem agg2 : (R7 (Proc.devRef .tc ReferenceIdeal.main_v91) : KernelIdeal.S50000x64.Idx → EReal)
    = KernelIdeal.Gen.W7 m ρ c (Proc.devRef .tc KernelIdeal.main_v62) := by
  obtain ⟨n5, n6, n31⟩ := norm1 m ρ m' c hag
  obtain ⟨p5, p6, p31⟩ := norm2 m m' c hag
  exact (HostAgree.agg2_agree (KernelIdeal.Gen.W6 m ρ c) R6
    (KernelIdeal.Gen.W6 m ρ c (Proc.devRef .tc KernelIdeal.main_v49))
    (KernelIdeal.Gen.W3 m ρ c (Proc.devRef .tc KernelIdeal.main_v5)) (KernelIdeal.Gen.W3 m ρ c (Proc.devRef .tc KernelIdeal.main_v6))
    (KernelIdeal.Gen.W3 m ρ c (Proc.devRef .tc KernelIdeal.main_v31))
    rfl (w6_v5 m ρ c) (w6_v6 m ρ c) (w6_v31 m ρ c)
    (xw2 m ρ m' c hag) ((dot2_keep_v51 R5).trans (p5.trans n5.symm)) ((dot2_keep_v52 R5).trans (p6.trans n6.symm))
    ((dot2_keep_v77 R5).trans (p31.trans n31.symm))).symm

/-! ## The result -/

/-- The reference's result buffer after its run is the kernel program's result buffer at its last boundary. -/
theorem value_eq :
    (after (ops (F := Ideal)) (launchContents m' c) (Proc.devRef .tc ReferenceIdeal.main_v97) : KernelIdeal.S50000x64.Idx → EReal)
      = KernelIdeal.Gen.W8 m ρ c (Proc.devRef .tc KernelIdeal.main_v64) := by
  rw [after_ops]
  funext i
  obtain ⟨r, q, rfl⟩ : ∃ (r : Fin 50000) (q : Fin 64), i = ix2 r q := ⟨i 0, i 1, eq_ix2 i⟩
  refine (out_apply R7 r q).trans ?_
  rw [agg2 m ρ m' c hag, r7_arg6 m m' c hag, ← w7_v63 m ρ c q, ← sp_eq, w8_v64 m ρ c]
  rfl

end Cert.Bridge

end
-- ==== Proof.lean ====
/-
  A two-layer graph convolution (symmetric normalisation with self loops, elu, then softplus plus a constant) computed
  two ways: by a program whose two feature transforms and two activations run as row-tiled kernels with the edge
  aggregation between them on the host, and by a reference that runs wholly on the host. Read over the extended reals
  (a change of float format is the identity, every operation exact), the two end with equal results, entry by entry.

  The three frame claims: each program terminates without a fault and leaves its arguments as launched. For the two
  kernel programs this is the generated frame; for the reference it is its run as a list of host operations, none of
  which writes an argument. The idealization rewrote nothing, so there is nothing to preserve. The equivalence: the
  kernel program's result buffer ends at its last boundary's contents, the reference's at the fold of its operations,
  and the two are one array (Proof/Bridge.lean): the shared host steps are the same operations on the same values, a
  matrix product accumulated into zero over row blocks is the whole product, and the two spellings of elu and of
  softplus agree at every extended real (Proof/Spec.lean).
-/
import proofs.«158829_j43301860278532_2_alg».proof.Defs
import proofs.«158829_j43301860278532_2_alg».proof.Proof.Gen.Kernel
import proofs.«158829_j43301860278532_2_alg».proof.Proof.Gen.Kernel.Skeleton
import proofs.«158829_j43301860278532_2_alg».proof.Proof.Gen.Kernel.Launch
import proofs.«158829_j43301860278532_2_alg».proof.Proof.Gen.Kernel.Points
import proofs.«158829_j43301860278532_2_alg».proof.Proof.Gen.Kernel.Frame
import proofs.«158829_j43301860278532_2_alg».proof.Proof.Gen.KernelIdeal
import proofs.«158829_j43301860278532_2_alg».proof.Proof.Gen.KernelIdeal.Skeleton
import proofs.«158829_j43301860278532_2_alg».proof.Proof.Gen.KernelIdeal.Launch
import proofs.«158829_j43301860278532_2_alg».proof.Proof.Gen.KernelIdeal.Points
import proofs.«158829_j43301860278532_2_alg».proof.Proof.Gen.KernelIdeal.Frame
import proofs.«158829_j43301860278532_2_alg».proof.Proof.Gen.ReferenceIdeal
import proofs.«158829_j43301860278532_2_alg».proof.Proof.Gen.Pre_finite_inputs
import proofs.«158829_j43301860278532_2_alg».proof.Proof.KRun
import proofs.«158829_j43301860278532_2_alg».proof.Proof.RefRun
import proofs.«158829_j43301860278532_2_alg».proof.Proof.RefArgs
import proofs.«158829_j43301860278532_2_alg».proof.Proof.Bridge
import Idealize.ShloMosaic.Adequacy
import Idealize.ShloMosaic.Init

noncomputable section

namespace Cert.Proof

open Idealize.ShloMosaic Idealize.SL.Sem Idealize.ShloMosaic.StableHlo

/-- The word-level kernel program terminates, faultless, its arguments unchanged. -/
theorem frame_k : @Cert.frame_Kernel Cert.Kernel.Gen.facts Cert.Pre_finite_inputs.Gen.facts :=
  fun m ρ _ => Cert.Kernel.Gen.frame m ρ

/-- So does the idealized kernel program. -/
theorem frame_ki : @Cert.frame_KernelIdeal Cert.KernelIdeal.Gen.facts Cert.Pre_finite_inputs.Gen.facts :=
  fun m ρ _ => Cert.KernelIdeal.Gen.frame m ρ

/-- So does the reference: it runs as its list of host operations, and none writes an argument. -/
theorem frame_ri : @Cert.frame_ReferenceIdeal Cert.ReferenceIdeal.Gen.facts Cert.Pre_finite_inputs.Gen.facts :=
  fun m ρ _ =>
    (θ_run (Cert.ReferenceIdeal.defs (F := Ideal)) _ _).mono (fun r h c =>
      ⟨(h c Cert.ReferenceIdeal.main_arg0).trans (Cert.ReferenceIdeal.RefArgs.keep_arg0 _),
       (h c Cert.ReferenceIdeal.main_arg1).trans (Cert.ReferenceIdeal.RefArgs.keep_arg1 _),
       (h c Cert.ReferenceIdeal.main_arg2).trans (Cert.ReferenceIdeal.RefArgs.keep_arg2 _),
       (h c Cert.ReferenceIdeal.main_arg3).trans (Cert.ReferenceIdeal.RefArgs.keep_arg3 _),
       (h c Cert.ReferenceIdeal.main_arg4).trans (Cert.ReferenceIdeal.RefArgs.keep_arg4 _),
       (h c Cert.ReferenceIdeal.main_arg5).trans (Cert.ReferenceIdeal.RefArgs.keep_arg5 _),
       (h c Cert.ReferenceIdeal.main_arg6).trans (Cert.ReferenceIdeal.RefArgs.keep_arg6 _)⟩)
      (Cert.ReferenceIdeal.RefRun.run_main (F := Ideal) m ρ)

/-- The idealization rewrote no operation. -/
theorem preserves : Cert.preserves_Kernel_KernelIdeal := trivial

/-- From memories agreeing on the arguments both idealized programs run, and end with one result array. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W8 m ρ c (Proc.devRef .tc Cert.KernelIdeal.main_v64),
    Cert.KernelIdeal.KRun.run (F := Ideal) m ρ, ?_⟩
  refine (θ_run (Cert.ReferenceIdeal.defs (F := Ideal)) _ _).mono (fun r h c => ?_)
    (Cert.ReferenceIdeal.RefRun.run_main (F := Ideal) m' ρ')
  exact ⟨(h c Cert.ReferenceIdeal.main_v97).trans (Cert.Bridge.value_eq m ρ m' c (hagree c)),
    (h c Cert.ReferenceIdeal.main_arg0).trans (Cert.ReferenceIdeal.RefArgs.keep_arg0 _),
    (h c Cert.ReferenceIdeal.main_arg1).trans (Cert.ReferenceIdeal.RefArgs.keep_arg1 _),
    (h c Cert.ReferenceIdeal.main_arg2).trans (Cert.ReferenceIdeal.RefArgs.keep_arg2 _),
    (h c Cert.ReferenceIdeal.main_arg3).trans (Cert.ReferenceIdeal.RefArgs.keep_arg3 _),
    (h c Cert.ReferenceIdeal.main_arg4).trans (Cert.ReferenceIdeal.RefArgs.keep_arg4 _),
    (h c Cert.ReferenceIdeal.main_arg5).trans (Cert.ReferenceIdeal.RefArgs.keep_arg5 _),
    (h c Cert.ReferenceIdeal.main_arg6).trans (Cert.ReferenceIdeal.RefArgs.keep_arg6 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
